-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x30000 : Shape := ⟨2, ![32, 30000]⟩
abbrev S500000 : Shape := ⟨1, ![500000]⟩
abbrev S2048 : Shape := ⟨1, ![2048]⟩
abbrev S500000x2 : Shape := ⟨2, ![500000, 2]⟩
abbrev S_ : Shape := ⟨0, ![]⟩
abbrev S500000x1 : Shape := ⟨2, ![500000, 1]⟩

class Facts : Prop where
  bcast_S_S32x30000 : S_.BroadcastsInDim S32x30000 (![] : Fin 0 → Fin S32x30000.rank)
  reducesTo_S32x30000_S_d0_1 : S32x30000.ReducesTo [0, 1] S_
  h_S_ : 0 < S_.numel
  bcast_S_S500000 : S_.BroadcastsInDim S500000 (![] : Fin 0 → Fin S500000.rank)
  reducesTo_S500000_S_d0 : S500000.ReducesTo [0] S_
  bcast_S_S2048 : S_.BroadcastsInDim S2048 (![] : Fin 0 → Fin S2048.rank)
  reducesTo_S2048_S_d0 : S2048.ReducesTo [0] S_
  slices_S500000x2_S500000x1_0_0 : S500000x2.Slices ![0, 0] S500000x1
  shapeCasts_S500000x1_S500000 : S500000x1.ShapeCasts S500000

variable [Facts]

def fn_part1 {F : FTy → Type} [FloatOps F] (main_v13 : IVec S_ 1) (main_v15 : IVec S500000 32) (main_v16 : IVec S500000 32) : IVec S_ 1 :=
  let main_v17 : IVec S500000 1 := cmpi .sge main_v15 main_v16
  let main_c_5 : IVec S_ 1 := constantI S_ 1 1#1
  let main_v18 : IVec S_ 1 := (fun x v => Host.reduce IntOp.andi x v reducesTo_S500000_S_d0 h_S_) main_v17 main_c_5
  let main_v19 : IVec S_ 1 := andi main_v13 main_v18
  main_v19

def fn {F : FTy → Type} [FloatOps F] (main_arg0 : FVec F S32x30000 .f32) (main_arg1 : FVec F S500000 .f32) (main_arg2 : FVec F S2048 .f32) (main_arg3 : IVec S500000x2 32) : IVec S_ 1 :=
  let main_v0 : FVec F S32x30000 .f32 := Host.absf main_arg0
  let main_cst : FVec F S_ .f32 := constant S_ .f32 0x7F800000#32
  let main_v1 : FVec F S32x30000 .f32 := broadcastInDim S32x30000 ![] bcast_S_S32x30000 main_cst
  let main_v2 : IVec S32x30000 1 := cmpf .olt main_v0 main_v1
  let main_c : IVec S_ 1 := constantI S_ 1 1#1
  let main_v3 : IVec S_ 1 := (fun x v => Host.reduce IntOp.andi x v reducesTo_S32x30000_S_d0_1 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : IVec S500000x1 32 := (extractStridedSlice S500000x1 ![0, 0] · slices_S500000x2_S500000x1_0_0) main_arg3
  let main_v15 : IVec S500000 32 := shapeCast S500000 main_v14 shapeCasts_S500000x1_S500000
  let main_c_4 : IVec S_ 32 := constantI S_ 32 0#32
  let main_v16 : IVec S500000 32 := broadcastInDim S500000 ![] bcast_S_S500000 main_c_4
  fn_part1 (F := F) main_v13 main_v15 main_v16
-- ==== Kernel.lean ====
abbrev S32x30000 : Shape := ⟨2, ![32, 30000]⟩
abbrev S500000 : Shape := ⟨1, ![500000]⟩
abbrev S2048 : Shape := ⟨1, ![2048]⟩
abbrev S500000x2 : Shape := ⟨2, ![500000, 2]⟩
abbrev S_ : Shape := ⟨0, ![]⟩
abbrev S30720x2048 : Shape := ⟨2, ![30720, 2048]⟩
abbrev S500000x1 : Shape := ⟨2, ![500000, 1]⟩
abbrev S32x30720 : Shape := ⟨2, ![32, 30720]⟩
abbrev S32x2048 : Shape := ⟨2, ![32, 2048]⟩
abbrev S32x6144 : Shape := ⟨2, ![32, 6144]⟩
abbrev S6144x1024 : Shape := ⟨2, ![6144, 1024]⟩
abbrev S1024 : Shape := ⟨1, ![1024]⟩
abbrev S32x1024 : Shape := ⟨2, ![32, 1024]⟩
abbrev S1x1024 : Shape := ⟨2, ![1, 1024]⟩

abbrev nBuf : Space → Nat
  | .hbm => 34
  | .vmem => 9
  | .smem => 0
  | _ => 0

abbrev bufTy : (tb : Table) → Fin (tcTables nBuf tb) → BufTy
  | .hbm, ⟨0, _⟩ => ⟨S32x30000, .f32⟩
  | .hbm, ⟨1, _⟩ => ⟨S500000, .f32⟩
  | .hbm, ⟨2, _⟩ => ⟨S2048, .f32⟩
  | .hbm, ⟨3, _⟩ => ⟨S500000x2, .i32⟩
  | .hbm, ⟨4, _⟩ => ⟨S_, .bf16⟩
  | .hbm, ⟨5, _⟩ => ⟨S30720x2048, .bf16⟩
  | .hbm, ⟨6, _⟩ => ⟨S500000x1, .i32⟩
  | .hbm, ⟨7, _⟩ => ⟨S500000, .i32⟩
  | .hbm, ⟨8, _⟩ => ⟨S500000x1, .i32⟩
  | .hbm, ⟨9, _⟩ => ⟨S500000, .i32⟩
  | .hbm, ⟨10, _⟩ => ⟨S500000, .bf16⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x1, .i32⟩
  | .hbm, ⟨27, _⟩ => ⟨S500000x2, .i32⟩
  | .hbm, ⟨28, _⟩ => ⟨S30720x2048, .bf16⟩
  | .hbm, ⟨29, _⟩ => ⟨S_, .i32⟩
  | .hbm, ⟨30, _⟩ => ⟨S_, .f32⟩
  | .hbm, ⟨31, _⟩ => ⟨S32x30720, .f32⟩
  | .hbm, ⟨32, _⟩ => ⟨S32x30720, .bf16⟩
  | .hbm, ⟨33, _⟩ => ⟨S32x2048, .f32⟩
  | .local _ .vmem, ⟨0, _⟩ => ⟨S32x6144, .bf16⟩
  | .local _ .vmem, ⟨1, _⟩ => ⟨S32x6144, .bf16⟩
  | .local _ .vmem, ⟨2, _⟩ => ⟨S6144x1024, .bf16⟩
  | .local _ .vmem, ⟨3, _⟩ => ⟨S6144x1024, .bf16⟩
  | .local _ .vmem, ⟨4, _⟩ => ⟨S1024, .f32⟩
  | .local _ .vmem, ⟨5, _⟩ => ⟨S1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | _, _ => ⟨S32x30000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S6144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S30720x2048 : S_.BroadcastsInDim S30720x2048 (![] : Fin 0 → Fin S30720x2048.rank)
  slices_S500000x2_S500000x1_0_0 : S500000x2.Slices ![0, 0] S500000x1
  shapeCasts_S500000x1_S500000 : S500000x1.ShapeCasts S500000
  slices_S500000x2_S500000x1_0_1 : S500000x2.Slices ![0, 1] S500000x1
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  pads_S32x30000_S32x30720_000_07200 : S32x30000.Pads (![0, 0] : Fin 2 → Nat) ![0, 720] ![0, 0] S32x30720
  h_S_ : 0 < S_.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S32x6144_S32x6144_0_0 : ∀ a, (![0, 0] : Fin 2 → Nat) a + S32x6144.size a ≤ S32x6144.size a
  h_S32x6144 : 0 < S32x6144.numel
  shapeCasts_S32x6144_S32x6144 : S32x6144.ShapeCasts S32x6144
  inb_S6144x1024_S6144x1024_0_0 : ∀ a, (![0, 0] : Fin 2 → Nat) a + S6144x1024.size a ≤ S6144x1024.size a
  h_S6144x1024 : 0 < S6144x1024.numel
  shapeCasts_S6144x1024_S6144x1024 : S6144x1024.ShapeCasts S6144x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S32x1024 : S1x1024.Broadcasts S32x1024
  scatter_S30720x2048_S500000x2_S500000_n_01_01_1_wf : ScatterDims.WF S30720x2048 S500000x2 S500000 [] [0, 1] [0, 1] 1
  dot_S32x6144_S6144x1024_S32x1024_1_0_0_1_n_n_wf : DotDims.WF S32x6144 S6144x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x6144.size a ≤ S32x30720.size a
  hwx0_0 : ∀ i : grid0.Coords, EltTy.bits .bf16 = 32 ∨ (Rect.block (s := S32x30720) S32x6144.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6144x1024.size a ≤ S30720x2048.size a
  hwx0_1 : ∀ i : grid0.Coords, EltTy.bits .bf16 = 32 ∨ (Rect.block (s := S30720x2048) S6144x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S2048.size a
  hwx0_2 : ∀ i : grid0.Coords, EltTy.bits .f32 = 32 ∨ (Rect.block (s := S2048) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x2048.size a
  hwx0_3 : ∀ i : grid0.Coords, EltTy.bits .f32 = 32 ∨ (Rect.block (s := S32x2048) S32x1024.size (cc0_transform_3 i) (hinb0_3 i)).WholeWords (EltTy.packing .f32)

variable [Facts₀]

def scatter_S30720x2048_S500000x2_S500000_n_01_01_1 : ScatterDims S30720x2048 S500000x2 S500000 where
  updateWindowDims := []
  insertedWindowDims := [0, 1]
  scatterDimsToOperandDims := [0, 1]
  indexVectorDim := 1
  wf := scatter_S30720x2048_S500000x2_S500000_n_01_01_1_wf
def dot_S32x6144_S6144x1024_S32x1024_1_0_0_1_n_n : DotDims S32x6144 S6144x1024 S32x1024 where
  lhsContracting := [1]
  rhsContracting := [0]
  lhsNonContracting := [0]
  rhsNonContracting := [1]
  lhsBatch := []
  rhsBatch := []
  wf := dot_S32x6144_S6144x1024_S32x1024_1_0_0_1_n_n_wf

abbrev win0_0 : Pipeline.Window sig grid0 :=
  Pipeline.Window.ofSpec (Memref.whole main_v21) S32x6144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S6144x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S32x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x30000 : Shape := ⟨2, ![32, 30000]⟩
abbrev S500000 : Shape := ⟨1, ![500000]⟩
abbrev S2048 : Shape := ⟨1, ![2048]⟩
abbrev S500000x2 : Shape := ⟨2, ![500000, 2]⟩
abbrev S_ : Shape := ⟨0, ![]⟩
abbrev S30000x2048 : Shape := ⟨2, ![30000, 2048]⟩
abbrev S500000x1 : Shape := ⟨2, ![500000, 1]⟩
abbrev S32x2048 : Shape := ⟨2, ![32, 2048]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S32x30000, .f32⟩
  | .hbm, ⟨1, _⟩ => ⟨S500000, .f32⟩
  | .hbm, ⟨2, _⟩ => ⟨S2048, .f32⟩
  | .hbm, ⟨3, _⟩ => ⟨S500000x2, .i32⟩
  | .hbm, ⟨4, _⟩ => ⟨S_, .f32⟩
  | .hbm, ⟨5, _⟩ => ⟨S30000x2048, .f32⟩
  | .hbm, ⟨6, _⟩ => ⟨S500000x1, .i32⟩
  | .hbm, ⟨7, _⟩ => ⟨S500000, .i32⟩
  | .hbm, ⟨8, _⟩ => ⟨S500000x1, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x1, .i32⟩
  | .hbm, ⟨26, _⟩ => ⟨S500000x2, .i32⟩
  | .hbm, ⟨27, _⟩ => ⟨S30000x2048, .f32⟩
  | .hbm, ⟨28, _⟩ => ⟨S32x2048, .f32⟩
  | .hbm, ⟨29, _⟩ => ⟨S1x2048, .f32⟩
  | .hbm, ⟨30, _⟩ => ⟨S32x2048, .f32⟩
  | .hbm, ⟨31, _⟩ => ⟨S32x2048, .f32⟩
  | .hbm, ⟨32, _⟩ => ⟨S32x2048, .f32⟩
  | _, _ => ⟨S32x30000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S30000x2048 : S_.BroadcastsInDim S30000x2048 (![] : Fin 0 → Fin S30000x2048.rank)
  slices_S500000x2_S500000x1_0_0 : S500000x2.Slices ![0, 0] S500000x1
  shapeCasts_S500000x1_S500000 : S500000x1.ShapeCasts S500000
  slices_S500000x2_S500000x1_0_1 : S500000x2.Slices ![0, 1] S500000x1
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  bcast_S2048_S1x2048_1 : S2048.BroadcastsInDim S1x2048 (![1] : Fin 1 → Fin S1x2048.rank)
  bcast_S1x2048_S32x2048_0_1 : S1x2048.BroadcastsInDim S32x2048 (![0, 1] : Fin 2 → Fin S32x2048.rank)
  scatter_S30000x2048_S500000x2_S500000_n_01_01_1_wf : ScatterDims.WF S30000x2048 S500000x2 S500000 [] [0, 1] [0, 1] 1
  dot_S32x30000_S30000x2048_S32x2048_1_0_0_1_n_n_wf : DotDims.WF S32x30000 S30000x2048 S32x2048 [1] [0] [0] [1] [] []

variable [Facts₀]

def scatter_S30000x2048_S500000x2_S500000_n_01_01_1 : ScatterDims S30000x2048 S500000x2 S500000 where
  updateWindowDims := []
  insertedWindowDims := [0, 1]
  scatterDimsToOperandDims := [0, 1]
  indexVectorDim := 1
  wf := scatter_S30000x2048_S500000x2_S500000_n_01_01_1_wf
def dot_S32x30000_S30000x2048_S32x2048_1_0_0_1_n_n : DotDims S32x30000 S30000x2048 S32x2048 where
  lhsContracting := [1]
  rhsContracting := [0]
  lhsNonContracting := [0]
  rhsNonContracting := [1]
  lhsBatch := []
  rhsBatch := []
  wf := dot_S32x30000_S30000x2048_S32x2048_1_0_0_1_n_n_wf

class Facts : Prop extends Facts₀ where

variable [Facts]
-- ==== Proof.CaseValues.lean ====
/-
  What one grid point leaves behind, case by case, for any float instance.

  The kernel walks a grid of two column tiles by five steps along the contracted axis. It keeps a 32 x 1024
  accumulator between the steps of one column tile. At the first step it stores a zero block into the
  accumulator and then adds the step's product to it; at every later step it adds the step's product to what the
  step before left; at the last step it also adds the bias row to the finished accumulator, applies tanh, and
  stores the result into the output block. The lemmas below read each case's stores back as the body's own
  arithmetic: the accumulator after a step is `k0_pay2` of the accumulator before it and the step's two input
  blocks (the zero block `k0_pay1` standing for "before" at the first step), and the output block after the last
  step is `k0_pay3` of that new accumulator and the bias block.
-/
import proofs.«137816_j38165079392670_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

/-- Every load and store of the body starts at the origin of its buffer. -/
theorem hz2 : (![0, 0] : Fin 2 → Nat) = fun _ => 0 := funext fun a => by fin_cases a <;> rfl
theorem hz1 : (![0] : Fin 1 → Nat) = fun _ => 0 := funext fun a => by fin_cases a; rfl

/-- First step of a column tile: the accumulator is zeroed, read back, and left at zero plus the step's product. -/
theorem acc_first (c : Dev nD) (i : grid0.Coords) (arg2 : Memref sig .tc .vmem S32x6144 .bf16) (harg2 : arg2.IsWhole) (arg3 : Memref sig .tc .vmem S6144x1024 .bf16) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : cond0_0 i) (hc1 : ¬cond0_1 i)
    (x0 : Vec F S32x6144 .bf16) (x1 : Vec F S6144x1024 .bf16) (x2 : Vec F S1024 .f32) :
    sout0_A_0 c i arg2 harg2 arg3 harg3 arg4 harg4 arg5 harg5 arg6 harg6 hc0 hc1 x0 x1 x2 = k0_pay2 k0_pay1 x0 x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S32x1024) hz2, View.readCov_unit_zero (S := S32x1024) _ hz2]
  simp only [View.readAt_eq_ld, harg2.read_unread, harg3.read_unread, View.ld_unit_zero (S := S32x6144) hz2,
    View.ld_unit_zero (S := S6144x1024) hz2]

/-- A middle step: the accumulator is left at what it held plus the step's product. -/
theorem acc_middle (c : Dev nD) (i : grid0.Coords) (arg2 : Memref sig .tc .vmem S32x6144 .bf16) (harg2 : arg2.IsWhole) (arg3 : Memref sig .tc .vmem S6144x1024 .bf16) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond0_0 i) (hc1 : ¬cond0_1 i)
    (x0 : Vec F S32x6144 .bf16) (x1 : Vec F S6144x1024 .bf16) (x2 : Vec F S1024 .f32) (xs0 : Vec F S32x1024 .f32) :
    sout0_B_0 c i arg2 harg2 arg3 harg3 arg4 harg4 arg5 harg5 arg6 harg6 hc0 hc1 x0 x1 x2 xs0 = k0_pay2 xs0 x0 x1 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz2]
  simp only [View.readAt_eq_ld, harg2.read_unread, harg3.read_unread, harg6.read_unread, View.ld_unit_zero (S := S32x6144) hz2,
    View.ld_unit_zero (S := S6144x1024) hz2, View.ld_unit_zero (S := S32x1024) hz2]

/-- The last step: the accumulator is again left at what it held plus the step's product; -/
theorem acc_last (c : Dev nD) (i : grid0.Coords) (arg2 : Memref sig .tc .vmem S32x6144 .bf16) (harg2 : arg2.IsWhole) (arg3 : Memref sig .tc .vmem S6144x1024 .bf16) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond0_0 i) (hc1 : cond0_1 i)
    (x0 : Vec F S32x6144 .bf16) (x1 : Vec F S6144x1024 .bf16) (x2 : Vec F S1024 .f32) (xs0 : Vec F S32x1024 .f32) :
    sout0_C_0 c i arg2 harg2 arg3 harg3 arg4 harg4 arg5 harg5 arg6 harg6 hc0 hc1 x0 x1 x2 xs0 = k0_pay2 xs0 x0 x1 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg6.read_unread, View.ld_unit_zero (S := S32x6144) hz2,
    View.ld_unit_zero (S := S6144x1024) hz2, View.ld_unit_zero (S := S32x1024) hz2]

/-- and the output block is left at tanh of that finished accumulator plus the bias row. -/
theorem out_last (c : Dev nD) (i : grid0.Coords) (arg2 : Memref sig .tc .vmem S32x6144 .bf16) (harg2 : arg2.IsWhole) (arg3 : Memref sig .tc .vmem S6144x1024 .bf16) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond0_0 i) (hc1 : cond0_1 i)
    (x0 : Vec F S32x6144 .bf16) (x1 : Vec F S6144x1024 .bf16) (x2 : Vec F S1024 .f32) (xs0 : Vec F S32x1024 .f32) :
    out0_C_3 c i arg2 harg2 arg3 harg3 arg4 harg4 arg5 harg5 arg6 harg6 hc0 hc1 x0 x1 x2 xs0 = k0_pay3 (k0_pay2 xs0 x0 x1) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2, View.readCov_unit_zero (S := S32x1024) _ hz2]
  simp only [View.readAt_eq_ld, harg2.read_unread, harg3.read_unread, harg4.read_unread, harg6.read_unread,
    View.ld_unit_zero (S := S32x6144) hz2, View.ld_unit_zero (S := S6144x1024) hz2, View.ld_unit_zero (S := S32x1024) hz2,
    View.ld_unit_zero (S := S1024) hz1]

end Cert.KernelIdeal.CaseValues

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.StepValues.lean ====
/-
  The body's arithmetic at one index, in exact arithmetic (floats read as extended reals, a change of float format
  the identity).

  * The block a column tile's first step starts from is zero everywhere.
  * A step adds to the accumulator, at row `p` and column `q` of the tile, the sum over the step's 6144 contracted
    positions `a` of the left block at `(p, a)` times the right block at `(a, q)`: the matrix unit's product into a
    zero accumulator is that plain sum.
  * The finish is `tanh (acc (p, q) + bias q)`: the bias vector is read as one row and that row is repeated down the
    32 rows.
-/
import proofs.«137816_j38165079392670_2_alg».proof.Proof.Gen.KernelIdeal.Skeleton
import proofs.«137816_j38165079392670_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.StepValues

open Cert.KernelIdeal Cert.KernelIdeal.Gen Idealize.ShloMosaic Idealize.ShloMosaic.ValueIdx

variable [Facts]

/-- The step's product takes the left block's row from the output row, -/
theorem dot_l0 (i : S32x1024.Idx) (q : dot_S32x6144_S6144x1024_S32x1024_1_0_0_1_n_n.contr.Idx) : (dot_S32x6144_S6144x1024_S32x1024_1_0_0_1_n_n.lhsIdx i q 0).val = (i 0).val := by
  unfold DotDims.lhsIdx
  rw [dif_neg (show ¬(0 : Fin S32x6144.rank) ∈ dot_S32x6144_S6144x1024_S32x1024_1_0_0_1_n_n.lhsBatch by decide), dif_pos (show (0 : Fin S32x6144.rank) ∈ dot_S32x6144_S6144x1024_S32x1024_1_0_0_1_n_n.lhsNonContracting by decide)]
  rfl
/-- its column from the contracted position; -/
theorem dot_l1 (i : S32x1024.Idx) (q : dot_S32x6144_S6144x1024_S32x1024_1_0_0_1_n_n.contr.Idx) : (dot_S32x6144_S6144x1024_S32x1024_1_0_0_1_n_n.lhsIdx i q 1).val = (q ⟨0, by decide⟩).val :=
  dot_S32x6144_S6144x1024_S32x1024_1_0_0_1_n_n.lhsIdx_val_of_single rfl i q
/-- the right block's row from the contracted position, -/
theorem dot_r0 (i : S32x1024.Idx) (q : dot_S32x6144_S6144x1024_S32x1024_1_0_0_1_n_n.contr.Idx) : (dot_S32x6144_S6144x1024_S32x1024_1_0_0_1_n_n.rhsIdx i q 0).val = (q ⟨0, by decide⟩).val :=
  dot_S32x6144_S6144x1024_S32x1024_1_0_0_1_n_n.rhsIdx_val_of_single rfl i q
/-- and its column from the output column. -/
theorem dot_r1 (i : S32x1024.Idx) (q : dot_S32x6144_S6144x1024_S32x1024_1_0_0_1_n_n.contr.Idx) : (dot_S32x6144_S6144x1024_S32x1024_1_0_0_1_n_n.rhsIdx i q 1).val = (i 1).val := by
  unfold DotDims.rhsIdx
  rw [dif_neg (show ¬(1 : Fin S6144x1024.rank) ∈ dot_S32x6144_S6144x1024_S32x1024_1_0_0_1_n_n.rhsBatch by decide), dif_pos (show (1 : Fin S6144x1024.rank) ∈ dot_S32x6144_S6144x1024_S32x1024_1_0_0_1_n_n.rhsNonContracting by decide)]
  rfl

/-- The block a column tile's first step starts from is zero. -/
theorem zero_block_apply (j : S32x1024.Idx) : k0_pay1 (F := Ideal) j = 0 := by
  unfold k0_pay1
  simp only [shapeCast_self]
  exact Ideal.ofBits_zero_f32

/-- One step at `(p, q)`: the accumulator there plus the sum over the step's contracted positions. -/
theorem step_apply (acc : Vec Ideal S32x1024 .f32) (x : Vec Ideal S32x6144 .bf16) (w : Vec Ideal S6144x1024 .bf16)
    (p : Fin 32) (q : Fin 1024) :
    k0_pay2 (F := Ideal) acc x w (ix2 p q) = acc (ix2 p q) + ∑ a : Fin 6144, x (ix2 p a) * w (ix2 a q) := by
  unfold k0_pay2
  simp only [shapeCast_self]
  refine (addf_apply _ _ _).trans ?_
  exact congrArg (acc (ix2 p q) + ·)
    (Cert.LibPlainDot.matmul_zero_plain dot_S32x6144_S6144x1024_S32x1024_1_0_0_1_n_n rfl rfl dot_l0 dot_l1 dot_r0 dot_r1 none x w p q)

/-- The finish at `(p, q)`: tanh of the accumulator there plus the bias at column `q`. -/
theorem finish_apply (acc : Vec Ideal S32x1024 .f32) (b : Vec Ideal S1024 .f32) (p : Fin 32) (q : Fin 1024) :
    k0_pay3 (F := Ideal) acc b (ix2 p q) = Ideal.tanh (acc (ix2 p q) + b (ix1 q)) := by
  unfold k0_pay3
  show Ideal.tanh (acc (ix2 p q) + broadcastTo S32x1024 (shapeCast S1x1024 b shapeCasts_S1024_S1x1024) broadcasts_S1x1024_S32x1024 (ix2 p q)) = _
  rw [broadcastTo_1b_ab_apply, shapeCast_a_1a_apply]

end Cert.KernelIdeal.StepValues

end
-- ==== Proof.TileFold.lean ====
/-
  One column tile of the result, from the blocks its five grid points read.

  The grid point numbered `n` (`n = 5 * tile + step`) adds to the carried accumulator, at row `p` and column `q`
  of the tile, its addend: the sum over the point's 6144 contracted positions of its left block at `(p, a)` times
  its right block at `(a, q)`. The accumulator is reset at the first point of a tile, so after the tile's last point
  it holds zero plus the five addends, and the block written back there is tanh of that plus the bias block.
  Nothing here needs more than that addition of extended reals is associative.
-/
import proofs.«137816_j38165079392670_2_alg».proof.Proof.Gen.KernelIdeal.Value
import proofs.«137816_j38165079392670_2_alg».proof.Proof.CaseValues
import proofs.«137816_j38165079392670_2_alg».proof.Proof.StepValues

noncomputable section

open scoped BigOperators

namespace Cert.KernelIdeal.TileFold

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The step's product at tile index `y`, for given left and right blocks: the left block's row `y 0` times the right
    block's column `y 1`, summed over the 6144 contracted positions. -/
def prodAt (x : Vec Ideal S32x6144 .bf16) (w : Vec Ideal S6144x1024 .bf16) (y : S32x1024.Idx) : EReal :=
  ∑ a : Fin 6144, x (ix2 (y 0) a) * w (ix2 a (y 1))

theorem prodAt_ix2 (x : Vec Ideal S32x6144 .bf16) (w : Vec Ideal S6144x1024 .bf16) (p : Fin 32) (q : Fin 1024) :
    prodAt x w (ix2 p q) = ∑ a : Fin 6144, x (ix2 p a) * w (ix2 a q) := rfl

/-- What grid point `n` adds to the accumulator at tile index `y`: the product of the two blocks it reads. -/
def addend (c : Dev nD) (n : ℕ) (y : S32x1024.Idx) : EReal :=
  if h : n < cfg0.N then prodAt (iblk m c 0 ⟨n, h⟩) (iblk m c 1 ⟨n, h⟩) y else 0

theorem addend_ix2 (c : Dev nD) (n : ℕ) (h : n < cfg0.N) (p : Fin 32) (q : Fin 1024) :
    addend m c n (ix2 p q) = prodAt (iblk m c 0 ⟨n, h⟩) (iblk m c 1 ⟨n, h⟩) (ix2 p q) := by
  unfold addend
  rw [dif_pos h]

/-- At the first point of a tile the accumulator is left at zero plus that point's addend, whatever it held. -/
theorem first_apply (c : Dev nD) (n : ℕ) (h : n < cfg0.N) (h0 : n % 5 = 0) (acc : Vec Ideal S32x1024 .f32) (y : S32x1024.Idx) :
    Value.scAt0_0 m c n h acc y = 0 + addend m c n y := by
  obtain ⟨p, q, rfl⟩ : ∃ (p : Fin 32) (q : Fin 1024), y = ix2 p q := ⟨y 0, y 1, eq_ix2 y⟩
  have h1 : ¬n % 5 = 4 := by omega
  unfold Value.scAt0_0
  rw [dif_pos h0, dif_neg h1]
  refine (congrFun (CaseValues.acc_first c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (iblk m c 0 ⟨n, h⟩ : Vec Ideal S32x6144 .bf16) (iblk m c 1 ⟨n, h⟩ : Vec Ideal S6144x1024 .bf16) (iblk m c 2 ⟨n, h⟩ : Vec Ideal S1024 .f32)) (ix2 p q)).trans ?_
  refine (StepValues.step_apply _ _ _ p q).trans ?_
  rw [StepValues.zero_block_apply, addend_ix2 m c n h p q]
  rfl

/-- At every later point of a tile the accumulator is left at what it held plus that point's addend. -/
theorem later_apply (c : Dev nD) (n : ℕ) (h : n < cfg0.N) (h0 : ¬n % 5 = 0) (acc : Vec Ideal S32x1024 .f32) (y : S32x1024.Idx) :
    Value.scAt0_0 m c n h acc y = acc y + addend m c n y := by
  obtain ⟨p, q, rfl⟩ : ∃ (p : Fin 32) (q : Fin 1024), y = ix2 p q := ⟨y 0, y 1, eq_ix2 y⟩
  unfold Value.scAt0_0
  rw [dif_neg h0]
  by_cases h1 : n % 5 = 4
  · rw [dif_pos h1]
    refine (congrFun (CaseValues.acc_last c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (iblk m c 0 ⟨n, h⟩ : Vec Ideal S32x6144 .bf16) (iblk m c 1 ⟨n, h⟩ : Vec Ideal S6144x1024 .bf16) (iblk m c 2 ⟨n, h⟩ : Vec Ideal S1024 .f32) acc) (ix2 p q)).trans ?_
    refine (StepValues.step_apply _ _ _ p q).trans ?_
    rw [addend_ix2 m c n h p q]
    rfl
  · rw [dif_neg h1]
    refine (congrFun (CaseValues.acc_middle c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (iblk m c 0 ⟨n, h⟩ : Vec Ideal S32x6144 .bf16) (iblk m c 1 ⟨n, h⟩ : Vec Ideal S6144x1024 .bf16) (iblk m c 2 ⟨n, h⟩ : Vec Ideal S1024 .f32) acc) (ix2 p q)).trans ?_
    refine (StepValues.step_apply _ _ _ p q).trans ?_
    rw [addend_ix2 m c n h p q]
    rfl

/-- The accumulator after point `t`: zero plus the addends of the tile's points up to `t`. -/
theorem acc_after (c : Dev nD) (t : Fin cfg0.N) (y : S32x1024.Idx) :
    (outsAt0 m c t.val t.isLt).2 y = 0 + ∑ s ∈ Finset.range (t.val % 5 + 1), addend m c (5 * (t.val / 5) + s) y := by
  have hN : cfg0.N = 10 := N_0
  have ht := t.isLt
  rw [Value.soutsAt0_0_eq m c t]
  exact Pipeline.accAt_add_apply (fun n h => Value.scAt0_0 m c n h (VS0_0.read (Elt Ideal) VS0_0.junk)) (Value.scAt0_0 m c)
    (fun _ => (0 : EReal)) (addend m c) (5 * (t.val / 5)) 4
    (fun h y => first_apply m c _ h (by omega) _ y)
    (fun n h acc y hb he => later_apply m c n h (by omega) acc y)
    (t.val % 5) (by omega) _ y

/-- The block the last point of a tile writes back: tanh of the five addends' sum plus the bias block. -/
theorem out_after (c : Dev nD) (t : Fin cfg0.N) (h4 : t.val % 5 = 4) (p : Fin 32) (q : Fin 1024) :
    (outsAt0 m c t.val t.isLt).1 (ix2 p q)
      = Ideal.tanh ((0 + ∑ s ∈ Finset.range 5, addend m c (5 * (t.val / 5) + s) (ix2 p q)) + (iblk m c 2 t : Vec Ideal S1024 .f32) (ix1 q)) := by
  have h0 : ¬t.val % 5 = 0 := by omega
  have e1 : (outsAt0 m c t.val t.isLt).1
      = k0_pay3 ((outsAt0 m c t.val t.isLt).2) (iblk m c 2 t : Vec Ideal S1024 .f32) := by
    rw [outsAt0_C m c t h0 h4]
    dsimp only
    refine (CaseValues.out_last c (grid0.coords t) (ms0_0 t) (hs0_0 t) (ms0_1 t) (hs0_1 t) (ms0_2 t) (hs0_2 t) (ms0_3 t) (hs0_3 t) scM0_0 (Memref.isWhole_whole _) _ _ (iblk m c 0 t : Vec Ideal S32x6144 .bf16) (iblk m c 1 t : Vec Ideal S6144x1024 .bf16) (iblk m c 2 t : Vec Ideal S1024 .f32) _).trans ?_
    exact congrArg (fun a => k0_pay3 a (iblk m c 2 t : Vec Ideal S1024 .f32))
      (CaseValues.acc_last c (grid0.coords t) (ms0_0 t) (hs0_0 t) (ms0_1 t) (hs0_1 t) (ms0_2 t) (hs0_2 t) (ms0_3 t) (hs0_3 t) scM0_0 (Memref.isWhole_whole _) _ _ (iblk m c 0 t : Vec Ideal S32x6144 .bf16) (iblk m c 1 t : Vec Ideal S6144x1024 .bf16) (iblk m c 2 t : Vec Ideal S1024 .f32) _).symm
  rw [e1]
  refine (StepValues.finish_apply _ _ p q).trans ?_
  rw [acc_after m c t (ix2 p q), h4]

end Cert.KernelIdeal.TileFold

end
-- ==== Proof.BlockReads.lean ====
/-
  Which entries of the arrays each grid point's blocks are.

  The grid point numbered `t` is column tile `t / 5`, step `t % 5`. It reads columns `6144 * (t % 5) ...` of the
  (padded) left matrix, rows `6144 * (t % 5) ...` and columns `1024 * (t / 5) ...` of the right matrix, entries
  `1024 * (t / 5) ...` of the bias, and the last step of a tile writes columns `1024 * (t / 5) ...` of the result.
-/
import proofs.«137816_j38165079392670_2_alg».proof.Proof.TileFold

noncomputable section

open scoped BigOperators

namespace Cert.KernelIdeal.BlockReads

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The left matrix, the right matrix and the bias as the kernel's region finds them. -/
def Xin (c : Dev nD) : S32x30720.Idx → EReal := V m c main_v21
def Win (c : Dev nD) : S30720x2048.Idx → EReal := V m c main_v19
def Bin (c : Dev nD) : S2048.Idx → EReal := V m c main_arg2

/-- The windows' block indices at every grid point, decided once over the grid. -/
theorem idx_facts : ∀ t : Fin cfg0.N,
    win0_0.index t (0 : Fin 2) = 0 ∧ win0_0.index t (1 : Fin 2) = t.val % 5
    ∧ win0_1.index t (0 : Fin 2) = t.val % 5 ∧ win0_1.index t (1 : Fin 2) = t.val / 5
    ∧ win0_2.index t (0 : Fin 1) = t.val / 5
    ∧ win0_3.index t (0 : Fin 2) = 0 ∧ win0_3.index t (1 : Fin 2) = t.val / 5 :=
  (by decide +kernel : ∀ t : Fin grid0.N, _)

/-- The left block of point `t` at `(p, a)` is the left matrix at `(p, 6144 * (t % 5) + a)`. -/
theorem xblk_apply (c : Dev nD) (t : Fin cfg0.N) (p : Fin 32) (a : Fin 6144) :
    (iblk m c 0 t : Vec Ideal S32x6144 .bf16) (ix2 p a) = Xin m c (ix2 p ⟨6144 * (t.val % 5) + a.val, by have := a.isLt; omega⟩) := by
  obtain ⟨e0, e1, -⟩ := idx_facts t
  unfold iblk Xin
  rw [View.read_apply]
  show V m c main_v21 _ = V m c main_v21 _
  congr 1
  funext ax
  apply Fin.ext
  match ax with
  | ⟨0, _⟩ => show win0_0.index t 0 * 32 + 1 * p.val = p.val; rw [e0]; omega
  | ⟨1, _⟩ => show win0_0.index t 1 * 6144 + 1 * a.val = 6144 * (t.val % 5) + a.val; rw [e1]; omega

/-- The right block of point `t` at `(a, q)` is the right matrix at `(6144 * (t % 5) + a, 1024 * (t / 5) + q)`. -/
theorem wblk_apply (c : Dev nD) (t : Fin cfg0.N) (a : Fin 6144) (q : Fin 1024) :
    (iblk m c 1 t : Vec Ideal S6144x1024 .bf16) (ix2 a q) = Win m c (ix2 ⟨6144 * (t.val % 5) + a.val, by have := a.isLt; omega⟩
      ⟨1024 * (t.val / 5) + q.val, by have := q.isLt; have := t.isLt; have hN : cfg0.N = 10 := N_0; omega⟩) := by
  obtain ⟨-, -, e2, e3, -⟩ := idx_facts t
  unfold iblk Win
  rw [View.read_apply]
  show V m c main_v19 _ = V m c main_v19 _
  congr 1
  funext ax
  apply Fin.ext
  match ax with
  | ⟨0, _⟩ => show win0_1.index t 0 * 6144 + 1 * a.val = 6144 * (t.val % 5) + a.val; rw [e2]; omega
  | ⟨1, _⟩ => show win0_1.index t 1 * 1024 + 1 * q.val = 1024 * (t.val / 5) + q.val; rw [e3]; omega

/-- The bias block of point `t` at `q` is the bias at `1024 * (t / 5) + q`. -/
theorem bblk_apply (c : Dev nD) (t : Fin cfg0.N) (q : Fin 1024) :
    (iblk m c 2 t : Vec Ideal S1024 .f32) (ix1 q) = Bin m c (ix1 ⟨1024 * (t.val / 5) + q.val, by have := q.isLt; have := t.isLt; have hN : cfg0.N = 10 := N_0; omega⟩) := by
  obtain ⟨-, -, -, -, e4, -⟩ := idx_facts t
  unfold iblk Bin
  rw [View.read_apply]
  show V m c main_arg2 _ = V m c main_arg2 _
  congr 1
  funext ax
  apply Fin.ext
  match ax with
  | ⟨0, _⟩ => show win0_2.index t 0 * 1024 + 1 * q.val = 1024 * (t.val / 5) + q.val; rw [e4]; omega

end Cert.KernelIdeal.BlockReads

end
-- ==== Proof.DenseSpec.lean ====
/-
  The dense layer as one function, and the two rearrangements of its sum that a tiled, zero-padded computation needs.

  `dense K X W B` at `(p, q)` is `tanh (∑ k < K, X (p, k) * W (k, q) + B q)` on the extended reals.

  * A sum over 30720 = 5 * 6144 indices is the sum, over five consecutive blocks, of the sums over the 6144 indices of
    each block. This is a re-indexing of a finite sum in a commutative monoid; nothing about infinities enters.
  * A sum over 30720 indices whose terms vanish from index 30000 on is the sum over the first 30000 indices.
  * Hence: padding the contracted axis from 30000 to 30720 with zero columns on the left factor, whatever the right
    factor holds in the added rows, does not change the dense layer (zero times anything is zero on the extended
    reals as well).
-/
import Idealize.ShloMosaic.PureOps.Ideal
import Idealize.ShloMosaic.Lib.ValueIdx

noncomputable section

open scoped BigOperators

namespace Cert.DenseSpec

open Idealize.ShloMosaic Idealize.ShloMosaic.ValueIdx

/-- The dense layer with `K` contracted positions, 32 rows and 2048 columns. -/
def dense (K : ℕ) (X : (⟨2, ![32, K]⟩ : Shape).Idx → EReal) (W : (⟨2, ![K, 2048]⟩ : Shape).Idx → EReal)
    (B : (⟨1, ![2048]⟩ : Shape).Idx → EReal) : (⟨2, ![32, 2048]⟩ : Shape).Idx → EReal :=
  fun i => Ideal.tanh (∑ k : Fin K, X (ix2 (i 0) k) * W (ix2 k (i 1)) + B (ix1 (i 1)))

theorem dense_ix2 (K : ℕ) (X : (⟨2, ![32, K]⟩ : Shape).Idx → EReal) (W : (⟨2, ![K, 2048]⟩ : Shape).Idx → EReal)
    (B : (⟨1, ![2048]⟩ : Shape).Idx → EReal) (p : Fin 32) (q : Fin 2048) :
    dense K X W B (ix2 p q) = Ideal.tanh (∑ k : Fin K, X (ix2 p k) * W (ix2 k q) + B (ix1 q)) := rfl

/-- A sum over `b * n` indices is the sum over `b` blocks of the sums over the `n` indices of each block; index
    `a` of block `s` is `a + n * s`. -/
theorem sum_blocks {M : Type*} [AddCommMonoid M] (b n : ℕ) (f : Fin (b * n) → M) :
    ∑ k, f k = ∑ s : Fin b, ∑ a : Fin n, f (finProdFinEquiv (s, a)) :=
  (Equiv.sum_comp finProdFinEquiv f).symm.trans (Fintype.sum_prod_type _)

/-- The five blocks of 6144 inside 30720 indices, the blocks numbered by a natural number below 5. -/
theorem sum_tiles (f : Fin 30720 → EReal) :
    ∑ s ∈ Finset.range 5, ∑ a : Fin 6144, f ⟨6144 * (s % 5) + a.val, by have := a.isLt; omega⟩ = ∑ k, f k := by
  rw [Finset.sum_range]
  refine Eq.symm ((sum_blocks 5 6144 (fun k => f ⟨k.val, k.isLt⟩)).trans ?_)
  refine Finset.sum_congr rfl fun s _ => Finset.sum_congr rfl fun a _ => congrArg f (Fin.ext ?_)
  show (finProdFinEquiv (s, a)).val = 6144 * (s.val % 5) + a.val
  rw [finProdFinEquiv_apply_val]
  have := s.isLt
  show a.val + 6144 * s.val = _
  omega

/-- A sum over 30720 indices whose terms vanish from 30000 on is the sum over the first 30000. -/
theorem sum_padded (f : Fin 30720 → EReal) (h : ∀ k : Fin 30720, 30000 ≤ k.val → f k = 0) :
    ∑ k, f k = ∑ k : Fin 30000, f ⟨k.val, by have := k.isLt; omega⟩ := by
  have e := Fin.sum_univ_add (a := 30000) (b := 720) (fun k : Fin (30000 + 720) => f ⟨k.val, k.isLt⟩)
  refine e.trans ?_
  have z : ∑ j : Fin 720, f ⟨(Fin.natAdd 30000 j).val, (Fin.natAdd 30000 j).isLt⟩ = 0 :=
    Finset.sum_eq_zero fun j _ => h _ (by show 30000 ≤ 30000 + j.val; omega)
  rw [z, add_zero]
  rfl

/-- Zero-padding the contracted axis from 30000 to 30720 does not change the dense layer: if the padded left factor
    agrees with the left factor on the first 30000 columns and is zero on the rest, and the padded right factor
    agrees with the right factor on the first 30000 rows, the two layers are one function. -/
theorem dense_padded (X : (⟨2, ![32, 30000]⟩ : Shape).Idx → EReal) (X' : (⟨2, ![32, 30720]⟩ : Shape).Idx → EReal)
    (W : (⟨2, ![30000, 2048]⟩ : Shape).Idx → EReal) (W' : (⟨2, ![30720, 2048]⟩ : Shape).Idx → EReal)
    (B : (⟨1, ![2048]⟩ : Shape).Idx → EReal)
    (hX : ∀ (p : Fin 32) (k : Fin 30000), X' (ix2 p ⟨k.val, by have := k.isLt; omega⟩) = X (ix2 p k))
    (hX0 : ∀ (p : Fin 32) (k : Fin 30720), 30000 ≤ k.val → X' (ix2 p k) = 0)
    (hW : ∀ (k : Fin 30000) (q : Fin 2048), W' (ix2 ⟨k.val, by have := k.isLt; omega⟩ q) = W (ix2 k q)) :
    dense 30720 X' W' B = dense 30000 X W B := by
  funext i
  obtain ⟨p, q, rfl⟩ : ∃ (p : Fin 32) (q : Fin 2048), i = ix2 p q := ⟨i 0, i 1, eq_ix2 i⟩
  rw [dense_ix2, dense_ix2]
  refine congrArg (fun s => Ideal.tanh (s + B (ix1 q))) ?_
  refine (sum_padded (fun k => X' (ix2 p k) * W' (ix2 k q)) fun k hk => ?_).trans ?_
  · show X' (ix2 p k) * W' (ix2 k q) = 0
    rw [hX0 p k hk, zero_mul]
  · exact Finset.sum_congr rfl fun k _ => by rw [hX p k, hW k q]

end Cert.DenseSpec

end
-- ==== Proof.ArrayValue.lean ====
/-
  From blocks to the whole result array.

  The last step of column tile `t / 5` writes back, at row `p` and column `q` of the tile, tanh of the five steps'
  addends plus the bias. Step `s`'s addend is the sum over the 6144 contracted positions `6144 * s + a`, so the five
  addends together are the sum over all 30720 contracted positions: the block is the block of ONE function of the
  arrays the region finds, the dense layer over 30720 contracted positions. The two tiles' blocks cover the result
  array, so the array ends at that function.
-/
import proofs.«137816_j38165079392670_2_alg».proof.Proof.BlockReads
import proofs.«137816_j38165079392670_2_alg».proof.Proof.DenseSpec

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.KernelIdeal.BlockReads
open Idealize.ShloMosaic.Pipeline (Dat)

variable (m : (ℓ : Loc nD τ sig) → Buf (Elt Ideal) ℓ) (ρ : Dev nD → PrngReg)

/-- Point `n`'s addend over the arrays: contracted positions `6144 * (n % 5) + a`, columns `1024 * (n / 5) + q`. -/
theorem addend_eq (c : Dev nD) (n : ℕ) (h : n < cfg0.N) (p : Fin 32) (q : Fin 1024) :
    TileFold.addend m c n (ix2 p q)
      = ∑ a : Fin 6144, Xin m c (ix2 p ⟨6144 * (n % 5) + a.val, by have := a.isLt; omega⟩)
          * Win m c (ix2 ⟨6144 * (n % 5) + a.val, by have := a.isLt; omega⟩
              ⟨1024 * (n / 5) + q.val, by have := q.isLt; have hN : cfg0.N = 10 := N_0; omega⟩) := by
  rw [TileFold.addend_ix2 m c n h p q, TileFold.prodAt_ix2]
  exact Finset.sum_congr rfl fun a _ =>
    congrArg₂ (fun u v : EReal => u * v) (xblk_apply m c ⟨n, h⟩ p a) (wblk_apply m c ⟨n, h⟩ a q)

/-- The result as one function of the arrays the region finds. -/
def result (c : Dev nD) : S32x2048.Idx → EReal := Cert.DenseSpec.dense 30720 (Xin m c) (Win m c) (Bin m c)

/-- WHAT A FLUSHING POINT WRITES BACK is its block of `result`. -/
theorem flushed_eq (c : Dev nD) (t : Fin cfg0.N) (hf : (cfg0.win 3).flush t = true) :
    (dats m 0 c).flushed 3 t = ((cfg0.win 3).blk t).view.read (Elt Ideal) (result m c) := by
  have h4 : t.val % 5 = 4 := (flush0_3 t).mp hf
  have hN : cfg0.N = 10 := N_0
  have ht := t.isLt
  obtain ⟨-, -, -, -, -, e5, e6⟩ := idx_facts t
  rw [Value.flushed3]
  refine funext fun (j : S32x1024.Idx) => ?_
  obtain ⟨p, q, rfl⟩ : ∃ (p : Fin 32) (q : Fin 1024), j = ix2 p q := ⟨j 0, j 1, eq_ix2 j⟩
  show (outsAt0 m c t.val t.isLt).1 (ix2 p q) = _
  rw [View.read_apply]
  have hemb : ((cfg0.win 3).blk t).view.emb (ix2 p q)
      = (ix2 p ⟨1024 * (t.val / 5) + q.val, by have := q.isLt; omega⟩ : S32x2048.Idx) := by
    funext ax; apply Fin.ext
    match ax with
    | ⟨0, _⟩ => show win0_3.index t 0 * 32 + 1 * p.val = p.val; rw [e5]; omega
    | ⟨1, _⟩ => show win0_3.index t 1 * 1024 + 1 * q.val = 1024 * (t.val / 5) + q.val; rw [e6]; omega
  rw [hemb]
  refine (TileFold.out_after m c t h4 p q).trans ?_
  unfold result
  rw [Cert.DenseSpec.dense_ix2, bblk_apply m c t q, zero_add,
    ← Cert.DenseSpec.sum_tiles (fun k => Xin m c (ix2 p k) * Win m c (ix2 k ⟨1024 * (t.val / 5) + q.val, by have := q.isLt; omega⟩))]
  refine congrArg (fun s => Ideal.tanh (s + Bin m c (ix1 ⟨1024 * (t.val / 5) + q.val, by have := q.isLt; omega⟩))) ?_
  refine Finset.sum_congr rfl fun s hs => ?_
  have hs5 : s < 5 := Finset.mem_range.mp hs
  have e1 : (5 * (t.val / 5) + s) % 5 = s % 5 := by omega
  have e2 : (5 * (t.val / 5) + s) / 5 = t.val / 5 := by omega
  rw [addend_eq m c (5 * (t.val / 5) + s) (by omega) p q]
  simp only [e1, e2]

/-- An index of the result array is in point `t`'s block iff each coordinate is in the block's range on its axis. -/
theorem mem_blk (t : Fin cfg0.N) (i : S32x2048.Idx) :
    i ∈ ((cfg0.win 3).blk t).view.set ↔ ∀ a : Fin 2, win0_3.index t a * S32x1024.size a ≤ (i a).val ∧ (i a).val < win0_3.index t a * S32x1024.size a + S32x1024.size a := by
  show i ∈ ((View.whole main_v22).slice (win0_3.rect t)).set ↔ _
  rw [View.set_slice_whole, Rect.mem_set_unit]
  exact Iff.rfl

/-- Every index of the result array is in the block of the last point of its column tile. -/
theorem cover (i : S32x2048.Idx) : ∃ t : Fin cfg0.N, (cfg0.win 3).flush t = true ∧ i ∈ ((cfg0.win 3).blk t).view.set := by
  have hN : cfg0.N = 10 := N_0
  have hi0 : (i 0).val < 32 := (i 0).isLt
  have hi1 : (i 1).val < 2048 := (i 1).isLt
  refine ⟨⟨5 * ((i 1).val / 1024) + 4, by omega⟩, (flush0_3 _).mpr (by show (5 * ((i 1).val / 1024) + 4) % 5 = 4; omega), ?_⟩
  obtain ⟨-, -, -, -, -, e5, e6⟩ := idx_facts ⟨5 * ((i 1).val / 1024) + 4, by omega⟩
  rw [mem_blk]
  intro a
  match a with
  | ⟨0, _⟩ =>
    show win0_3.index _ (0 : Fin 2) * 32 ≤ (i 0).val ∧ (i 0).val < win0_3.index _ (0 : Fin 2) * 32 + 32
    rw [e5]; omega
  | ⟨1, _⟩ =>
    show win0_3.index _ (1 : Fin 2) * 1024 ≤ (i 1).val ∧ (i 1).val < win0_3.index _ (1 : Fin 2) * 1024 + 1024
    rw [e6]
    show (5 * ((i 1).val / 1024) + 4) / 5 * 1024 ≤ (i 1).val ∧ (i 1).val < (5 * ((i 1).val / 1024) + 4) / 5 * 1024 + 1024
    omega

/-- THE ARRAY after the run is `result`. -/
theorem final (c : Dev nD) : (dats m 0 c).arrAt 3 cfg0.N = result m c :=
  (dats m 0 c).arrAt_eq_of_cover 3 (result m c) (flushed_eq m c) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.LibWrapPairs.lean ====
import Idealize.ShloMosaic.PureOps
import Idealize.ShloMosaic.Lib.ValueIdx
import Idealize.ShloMosaic.Lib.ValueLayout
import Idealize.ShloMosaic.Lib.Pipeline.Value

/-!
# Wrap-around of a pair of index columns before a scatter

An update `x.at[idx[:, 0], idx[:, 1]].set(v)` with an integer array `idx : [N, 2]` follows numpy's convention for
negative indices: an index `k < 0` on an axis of extent `E` means `k + E`. The lowering states this per column, with
plain array operations: slice the column out, flatten it to `[N]`, compare it with a splat of zero (signed), add a splat
of the extent, select between the sum and the original, put the result back as a column `[N, 1]`, and concatenate the two
columns again into an `[N, 2]` array.

This file names that chain (`wrapCol`, `wrapPairs`), reads it at an entry (`wrapPairs_row`, `wrapPairs_col`: entry
`(n, c)` of the result is the scalar wrap `wrap` of entry `(n, c)` of the operand, with the extent of column `c`), and
shows that the scalar wrap leaves a non-negative index as it is (`wrap_of_nonneg`).
-/

namespace Cert.LibWrapPairs

open Idealize.ShloMosaic
open Idealize.ShloMosaic.ValueIdx

/-- numpy's wrap-around of one index `v` on an axis of extent `ext`, on 32-bit words: `v + ext` when `v` is negative
    (signed comparison with zero), `v` itself otherwise. -/
def wrap (ext v : BitVec 32) : BitVec 32 :=
  Scalar.select (IntOp.cmpi .slt v 0#32) (IntOp.addi v ext) v

/-- Column `col` of the pair array `a3 : [N, 2]`, wrapped around the extent `ext`, as a column `[N, 1]`: the slice
    `[0:N, col:col+1]`, reshaped to `[N]`; where it is below the zero splat (signed) the sum with the extent splat,
    elsewhere the value itself; broadcast back to `[N, 1]` along axis 0. -/
def wrapCol (N col : Nat) (ext : BitVec 32) (a3 : IVec ⟨2, ![N, 2]⟩ 32)
    (hs : (⟨2, ![N, 2]⟩ : Shape).Slices ![0, col] ⟨2, ![N, 1]⟩)
    (hc : (⟨2, ![N, 1]⟩ : Shape).ShapeCasts ⟨1, ![N]⟩)
    (hb : (⟨0, ![]⟩ : Shape).BroadcastsInDim ⟨1, ![N]⟩ (![] : Fin 0 → Fin (⟨1, ![N]⟩ : Shape).rank))
    (hb1 : (⟨1, ![N]⟩ : Shape).BroadcastsInDim ⟨2, ![N, 1]⟩ (![0] : Fin 1 → Fin (⟨2, ![N, 1]⟩ : Shape).rank)) :
    IVec ⟨2, ![N, 1]⟩ 32 :=
  broadcastInDim ⟨2, ![N, 1]⟩ ![0] hb1
    (select
      (cmpi .slt
        (shapeCast ⟨1, ![N]⟩ (extractStridedSlice ⟨2, ![N, 1]⟩ ![0, col] a3 hs) hc)
        (broadcastInDim ⟨1, ![N]⟩ ![] hb (constantI ⟨0, ![]⟩ 32 0#32)))
      (addi
        (shapeCast ⟨1, ![N]⟩ (extractStridedSlice ⟨2, ![N, 1]⟩ ![0, col] a3 hs) hc)
        (broadcastInDim ⟨1, ![N]⟩ ![] hb (constantI ⟨0, ![]⟩ 32 ext)))
      (shapeCast ⟨1, ![N]⟩ (extractStridedSlice ⟨2, ![N, 1]⟩ ![0, col] a3 hs) hc))

/-- The pair array `a3 : [N, 2]` with column 0 wrapped around the extent `R` and column 1 around the extent `C`: the
    two wrapped columns concatenated along axis 1. -/
def wrapPairs (N : Nat) (R C : BitVec 32) (a3 : IVec ⟨2, ![N, 2]⟩ 32)
    (hs0 : (⟨2, ![N, 2]⟩ : Shape).Slices ![0, 0] ⟨2, ![N, 1]⟩)
    (hs1 : (⟨2, ![N, 2]⟩ : Shape).Slices ![0, 1] ⟨2, ![N, 1]⟩)
    (hc : (⟨2, ![N, 1]⟩ : Shape).ShapeCasts ⟨1, ![N]⟩)
    (hb : (⟨0, ![]⟩ : Shape).BroadcastsInDim ⟨1, ![N]⟩ (![] : Fin 0 → Fin (⟨1, ![N]⟩ : Shape).rank))
    (hb1 : (⟨1, ![N]⟩ : Shape).BroadcastsInDim ⟨2, ![N, 1]⟩ (![0] : Fin 1 → Fin (⟨2, ![N, 1]⟩ : Shape).rank))
    (hcat : Shape.Concatenates [(⟨2, ![N, 1]⟩ : Shape), ⟨2, ![N, 1]⟩] ⟨2, ![N, 2]⟩ 1) :
    IVec ⟨2, ![N, 2]⟩ 32 :=
  concatenate ⟨2, ![N, 2]⟩ 1
    [⟨⟨2, ![N, 1]⟩, wrapCol N 0 R a3 hs0 hc hb hb1⟩, ⟨⟨2, ![N, 1]⟩, wrapCol N 1 C a3 hs1 hc hb hb1⟩] hcat

/-- Row `n` of the wrapped column `col` is the scalar wrap of entry `(n, col)` of the pair array. -/
theorem wrapCol_apply (N col : Nat) (hcol : col < 2) (ext : BitVec 32) (a3 : IVec ⟨2, ![N, 2]⟩ 32)
    (hs : (⟨2, ![N, 2]⟩ : Shape).Slices ![0, col] ⟨2, ![N, 1]⟩)
    (hc : (⟨2, ![N, 1]⟩ : Shape).ShapeCasts ⟨1, ![N]⟩)
    (hb : (⟨0, ![]⟩ : Shape).BroadcastsInDim ⟨1, ![N]⟩ (![] : Fin 0 → Fin (⟨1, ![N]⟩ : Shape).rank))
    (hb1 : (⟨1, ![N]⟩ : Shape).BroadcastsInDim ⟨2, ![N, 1]⟩ (![0] : Fin 1 → Fin (⟨2, ![N, 1]⟩ : Shape).rank))
    (n : Fin N) :
    wrapCol N col ext a3 hs hc hb hb1 (ix2 n (0 : Fin 1)) = wrap ext (a3 (ix2 n (⟨col, hcol⟩ : Fin 2))) := by
  -- the flattened slice at position n is entry (n, col) of the pair array
  have e1 : shapeCast ⟨1, ![N]⟩ (extractStridedSlice ⟨2, ![N, 1]⟩ ![0, col] a3 hs) hc (ix1 n)
      = a3 (ix2 n (⟨col, hcol⟩ : Fin 2)) := by
    rw [shapeCast_apply _ hc (ix1 n) (ix2 n (0 : Fin 1))
      (by rw [Shape.rowMajor_val_two, Shape.rowMajor_val_one]; show n.val * 1 + 0 = n.val; omega)]
    exact extractStridedSlice_apply _ a3 hs _ _ (fun a => match a with
      | ⟨0, _⟩ => by show n.val = 0 + n.val; omega
      | ⟨1, _⟩ => by show col = col + 0; omega)
  unfold wrapCol
  rw [broadcastInDim_apply _ hb1 _ (ix2 n (0 : Fin 1)) (ix1 n) (fun a => match a with
    | ⟨0, _⟩ => by
        have hn := n.isLt
        show n.val = if N = 1 then 0 else n.val
        split <;> omega)]
  rw [select_apply]
  show Scalar.select (IntOp.cmpi .slt (shapeCast ⟨1, ![N]⟩ (extractStridedSlice ⟨2, ![N, 1]⟩ ![0, col] a3 hs) hc (ix1 n)) 0#32)
      (IntOp.addi (shapeCast ⟨1, ![N]⟩ (extractStridedSlice ⟨2, ![N, 1]⟩ ![0, col] a3 hs) hc (ix1 n)) ext)
      (shapeCast ⟨1, ![N]⟩ (extractStridedSlice ⟨2, ![N, 1]⟩ ![0, col] a3 hs) hc (ix1 n)) = _
  rw [e1]
  rfl

section Pairs
variable (N : Nat) (R C : BitVec 32) (a3 : IVec ⟨2, ![N, 2]⟩ 32)
  (hs0 : (⟨2, ![N, 2]⟩ : Shape).Slices ![0, 0] ⟨2, ![N, 1]⟩)
  (hs1 : (⟨2, ![N, 2]⟩ : Shape).Slices ![0, 1] ⟨2, ![N, 1]⟩)
  (hc : (⟨2, ![N, 1]⟩ : Shape).ShapeCasts ⟨1, ![N]⟩)
  (hb : (⟨0, ![]⟩ : Shape).BroadcastsInDim ⟨1, ![N]⟩ (![] : Fin 0 → Fin (⟨1, ![N]⟩ : Shape).rank))
  (hb1 : (⟨1, ![N]⟩ : Shape).BroadcastsInDim ⟨2, ![N, 1]⟩ (![0] : Fin 1 → Fin (⟨2, ![N, 1]⟩ : Shape).rank))
  (hcat : Shape.Concatenates [(⟨2, ![N, 1]⟩ : Shape), ⟨2, ![N, 1]⟩] ⟨2, ![N, 2]⟩ 1)

/-- Entry `(n, 0)` of the wrapped pair array — the row index of pair `n` — is entry `(n, 0)` of the operand wrapped
    around the row extent `R`. -/
theorem wrapPairs_row (n : Fin N) :
    wrapPairs N R C a3 hs0 hs1 hc hb hb1 hcat (ix2 n (0 : Fin 2)) = wrap R (a3 (ix2 n (0 : Fin 2))) := by
  unfold wrapPairs
  rw [concatenate_pair_apply_left (t := ⟨2, ![N, 2]⟩) 1 _ _ hcat (ix2 n (0 : Fin 2)) rfl (ix2 n (0 : Fin 1))
    (fun b => match b with
      | ⟨0, _⟩ => rfl
      | ⟨1, _⟩ => rfl)]
  exact wrapCol_apply N 0 (by decide) R a3 hs0 hc hb hb1 n

/-- Entry `(n, 1)` of the wrapped pair array — the column index of pair `n` — is entry `(n, 1)` of the operand
    wrapped around the column extent `C`. -/
theorem wrapPairs_col (n : Fin N) :
    wrapPairs N R C a3 hs0 hs1 hc hb hb1 hcat (ix2 n (1 : Fin 2)) = wrap C (a3 (ix2 n (1 : Fin 2))) := by
  unfold wrapPairs
  rw [concatenate_pair_apply_right (t := ⟨2, ![N, 2]⟩) 1 _ _ hcat (ix2 n (1 : Fin 2)) rfl rfl (ix2 n (0 : Fin 1))
    (fun b => match b with
      | ⟨0, _⟩ => fun _ => rfl
      | ⟨1, _⟩ => fun hne => absurd rfl hne)
    rfl]
  exact wrapCol_apply N 1 (by decide) C a3 hs1 hc hb hb1 n

end Pairs

/-- A non-negative index is left as it is: the signed comparison `v < 0` is false, so the selection takes `v`. -/
theorem wrap_of_nonneg (ext v : BitVec 32) (h : 0 ≤ v.toInt) : wrap ext v = v := by
  have hs : BitVec.slt v 0#32 = false := by
    apply Bool.eq_false_iff.2
    intro ht
    have hlt := BitVec.slt_iff_toInt_lt.1 ht
    have h0 : (0#32 : BitVec 32).toInt = 0 := by decide
    omega
  show Scalar.select (BitVec.ofBool (BitVec.slt v 0#32)) (IntOp.addi v ext) v = v
  rw [hs]
  exact if_neg (by decide)

end Cert.LibWrapPairs
-- ==== Proof.RegionInputs.lean ====
/-
  The three arrays the kernel's region finds, as functions of the program's arguments.

  * The left matrix is `x` with 720 columns of padding added on the right (the padding value is the integer 0
    converted to a float), then changed to the narrower float format.
  * The right matrix is the scatter, into a 30720 x 2048 array of zeros, of the weight vector (changed to the narrower
    float format) at the index pairs wrapped around the extents 30720 and 2048.
  * The bias is the bias argument, untouched.
-/
import proofs.«137816_j38165079392670_2_alg».proof.Proof.BlockReads
import proofs.«137816_j38165079392670_2_alg».proof.Proof.LibWrapPairs
import Idealize.ShloMosaic.Lib.StableHlo.Run

noncomputable section

namespace Cert.KernelIdeal.RegionInputs

open Cert.KernelIdeal Cert.KernelIdeal.Gen Idealize.ShloMosaic Idealize.ShloMosaic.TcCoe Idealize.SL.Sem
open Cert.KernelIdeal.BlockReads

variable (m : (ℓ : Loc nD τ sig) → Buf (Elt Ideal) ℓ)

/-- The padded left matrix. -/
def paddedX (c : Dev nD) : S32x30720.Idx → EReal :=
  truncf .bf16 (pad S32x30720 ![0, 0] ![0, 720] ![0, 0] (m ((c : Thread nD τ).loc main_arg0))
    (sitofp (F := Ideal) .f32 (constantI S_ 32 0#32)) Facts₀.pads_S32x30000_S32x30720_000_07200 Facts₀.h_S_) Facts₀.bitsLt_bf16_f32

/-- The index pairs the kernel scatters at: rows wrapped around 30720, columns around 2048. -/
def pairs (c : Dev nD) : IVec S500000x2 32 :=
  Cert.LibWrapPairs.wrapPairs 500000 30720#32 2048#32 (m ((c : Thread nD τ).loc main_arg3))
    Facts₀.slices_S500000x2_S500000x1_0_0 Facts₀.slices_S500000x2_S500000x1_0_1 Facts₀.shapeCasts_S500000x1_S500000 Facts₀.bcast_S_S500000
    Facts₀.bcast_S500000_S500000x1_0 Facts₀.concatenates_S500000x1_S500000x1_S500000x2_d1

/-- The array of zeros the kernel scatters into. -/
def zeros : S30720x2048.Idx → EReal :=
  broadcastInDim S30720x2048 ![] Facts₀.bcast_S_S30720x2048 (constant (F := Ideal) S_ .bf16 0x0000#16)

/-- The weights the kernel scatters: the weight vector in the narrower float format. -/
def weights (c : Dev nD) : S500000.Idx → EReal :=
  (truncf .bf16 (m ((c : Thread nD τ).loc main_arg1) : FVec Ideal S500000 .f32) Facts₀.bitsLt_bf16_f32 : FVec Ideal S500000 .bf16)

/-- A change of float format is the identity on extended reals: the weights are the weight vector. -/
theorem weights_eq (c : Dev nD) : weights m c = m ((c : Thread nD τ).loc main_arg1) := funext fun i => rfl

/-- The scattered right matrix. -/
def scattered (c : Dev nD) : S30720x2048.Idx → EReal :=
  Host.scatter scatter_S30720x2048_S500000x2_S500000_n_01_01_1 (fun _ b => b) zeros (pairs m c) (weights m c)

theorem Xin_eq (c : Dev nD) : Xin m c = paddedX m c := by
  unfold Xin paddedX
  dsimp only [V]
  simp only [hostOps0, hostOps0_1, hostOps0_2, List.flatten_cons, List.flatten_nil, List.append_nil, List.cons_append,
    List.nil_append]
  after_results
  rfl

theorem Win_eq (c : Dev nD) : Win m c = scattered m c := by
  obtain ⟨z, ix, u, h, hz, hix, hu⟩ : ∃ (z : S30720x2048.Idx → EReal) (ix : IVec S500000x2 32) (u : S500000.Idx → EReal),
      Win m c = Host.scatter scatter_S30720x2048_S500000x2_S500000_n_01_01_1 (fun _ b => b) z ix u
      ∧ z = zeros
      ∧ ix = pairs m c
      ∧ u = weights m c := by
    refine ⟨?z, ?ix, ?u, ?h, ?hz, ?hix, ?hu⟩
    case h =>
      unfold Win
      dsimp only [V]
      simp only [hostOps0, hostOps0_1, hostOps0_2, List.flatten_cons, List.flatten_nil, List.append_nil, List.cons_append,
        List.nil_append]
      after_results
    case hz => rfl
    case hix => rfl
    case hu => rfl
  rw [h, hz, hix, hu]
  rfl

theorem Bin_eq (c : Dev nD) : Bin m c = m ((c : Thread nD τ).loc main_arg2) := V_main_arg2 m c

end Cert.KernelIdeal.RegionInputs

end
-- ==== Proof.RefDense.lean ====
/-
  The reference, read as the dense layer: at `(p, q)` its result is tanh of the sum over the 30000 contracted positions
  `k` of `x (p, k)` times the scattered matrix at `(k, q)`, plus the bias at `q` (the bias is made a row and the row is
  repeated down the 32 rows).
-/
import proofs.«137816_j38165079392670_2_alg».proof.Proof.Gen.ReferenceIdeal.Read
import proofs.«137816_j38165079392670_2_alg».proof.Proof.DenseSpec

noncomputable section

open scoped BigOperators

namespace Cert.ReferenceIdeal.RefDense

open Cert.ReferenceIdeal Cert.ReferenceIdeal.Gen Cert.ReferenceIdeal.Read Idealize.ShloMosaic Idealize.ShloMosaic.ValueIdx

/-- The reference's result is the dense layer of its arguments and its scattered matrix. -/
theorem ref_eq (x0 : S32x30000.Idx → EReal) (x1 : S500000.Idx → EReal) (x2 : S2048.Idx → EReal) (x3 : IVec S500000x2 32) :
    val_main_v23 (F := Ideal) x0 x1 x2 x3 = Cert.DenseSpec.dense 30000 x0 (val_main_v18 (F := Ideal) x1 x3) x2 := by
  funext i
  obtain ⟨p, q, rfl⟩ : ∃ (p : Fin 32) (q : Fin 2048), i = ix2 p q := ⟨i 0, i 1, eq_ix2 i⟩
  rw [val_main_v23_apply, val_main_v22_apply, val_main_v19_apply, val_main_v21_apply, val_main_v20_apply,
    Cert.DenseSpec.dense_ix2]
  have el : ∀ k : Fin 30000, lidx_main_v19 (ix2 p q) k = ix2 p k := fun k => funext fun a => Fin.ext (by
    match a with
    | ⟨0, _⟩ => rfl
    | ⟨1, _⟩ => rfl)
  have er : ∀ k : Fin 30000, ridx_main_v19 (ix2 p q) k = ix2 k q := fun k => funext fun a => Fin.ext (by
    match a with
    | ⟨0, _⟩ => rfl
    | ⟨1, _⟩ => rfl)
  have eb : idx_main_v20 (idx_main_v21 (ix2 p q)) = ix1 q := funext fun a => Fin.ext (by
    match a with
    | ⟨0, _⟩ => rfl)
  simp only [el, er, eb]
  rw [Ideal.hostUnary_tanh_def, Ideal.addf_def]

end Cert.ReferenceIdeal.RefDense

end
-- ==== Proof.LibPointScatter.lean ====
/-
  A point scatter into a 2-D array — what `x.at[rows, cols].set(v)` lowers to: operand `[R, C]`, scatter indices
  `[N, 2]` (row `n` is the pair (row index, column index)), updates `[N]`, both operand axes inserted window axes
  named by the index vector's two components (`index_vector_dim = 1`) — read through its definition as a left fold
  over the update positions in row-major order.

  First the result index of update `n`: its start is the pair read SIGNED off row `n` of the scatter indices, its
  window coordinate is zero on both axes, so the update lands at `(r, c)` when `0 ≤ r < R` and `0 ≤ c < C` and is
  dropped otherwise (`resultIdx?_eq`, `resultIdx?_of`, `resultIdx?_ix1`).

  Then the restriction to a sub-box of rows (`scatter_restrict`, and `scatter_set_restrict` for the body that
  returns the update): take the same scatter into an operand `[R', C]` with `R ≤ R'` rows, with scatter indices that
  read the same signed pairs and an operand that agrees with the small one on the rows below `R`. Both scatters fold
  over the same update positions in the same order. An update addressed to `(r, c)` with `r < R` lands at the same
  place in both; one with `R ≤ r < R'` lands only in the larger operand, in a row a position `(p, q)` with `p < R`
  never sees; every other update is dropped by both. So "the two accumulators agree on the rows below `R`" is kept by
  every step of the fold, and the two results agree there.
-/
import Idealize.ShloMosaic.PureOps.ShapeOps
import Idealize.ShloMosaic.Lib.ValueIdx

namespace Cert.LibPointScatter

open Idealize.ShloMosaic Idealize.ShloMosaic.ValueIdx

/-! ## The three shapes and the dimension numbers -/

/-- The operand's shape: `R` rows of `C` columns. -/
abbrev opS (R C : Nat) : Shape := ⟨2, ![R, C]⟩
/-- The scatter indices' shape: `N` index vectors of two components. -/
abbrev siS (N : Nat) : Shape := ⟨2, ![N, 2]⟩
/-- The updates' shape: `N` scalars. -/
abbrev updS (N : Nat) : Shape := ⟨1, ![N]⟩

/-- The dimension numbers' conditions for a point scatter of `N` scalars into an `[R, C]` operand: no update window
    axes, both operand axes inserted, index component `k` naming operand axis `k`, the index vector on axis 1. -/
abbrev PointWF (R C N : Nat) : Prop := ScatterDims.WF (opS R C) (siS N) (updS N) [] [0, 1] [0, 1] 1

/-- The point scatter's dimension numbers, from ANY proof of their conditions. -/
abbrev pointDims (R C N : Nat) (wf : PointWF R C N) : ScatterDims (opS R C) (siS N) (updS N) :=
  ScatterDims.mk [] [0, 1] [0, 1] 1 wf

variable {R C N : Nat}

/-! ## The result index of one update -/

/-- Both operand axes are inserted window axes: none is kept for a window. -/
theorem sKept_eq (wf : PointWF R C N) : (pointDims R C N wf).sKept = [] := rfl

/-- The window coordinate is zero on both operand axes (the update window is a single element). -/
theorem window_eq (wf : PointWF R C N) (j : (updS N).Idx) (a : Fin 2) :
    (pointDims R C N wf).window j a = 0 := by
  unfold ScatterDims.window
  rw [dif_neg]
  rw [sKept_eq]; exact List.not_mem_nil

/-- Update `j` reads component `c` of its start index at position `(j, c)` of the scatter indices. -/
theorem siIdx_eq (wf : PointWF R C N) (j : (updS N).Idx) (c : Fin 2) :
    (pointDims R C N wf).siIdx j c = ix2 (j 0) c := by
  funext b
  match b with
  | ⟨0, _⟩ => rfl
  | ⟨1, _⟩ => rfl

/-- The start of update `j` on operand axis `a` is entry `(j, a)` of the scatter indices, read signed. -/
theorem start_eq {w : Nat} (wf : PointWF R C N) (j : (updS N).Idx) (idx : IVec (siS N) w) (a : Fin 2) :
    (pointDims R C N wf).start j idx a = (idx (ix2 (j 0) a)).toInt := by
  have hmem : a ∈ (pointDims R C N wf).scatterDimsToOperandDims := by
    show a ∈ ([0, 1] : List (Fin 2))
    match a with
    | ⟨0, _⟩ => simp
    | ⟨1, _⟩ => simp
  unfold ScatterDims.start
  rw [dif_pos hmem, siIdx_eq]
  congr 2
  match a with
  | ⟨0, _⟩ => rfl
  | ⟨1, _⟩ => rfl

/-- The result index of update `j`: with `r`, `c` the signed entries `(j, 0)`, `(j, 1)` of the scatter indices, the
    update lands at `(r, c)` when `0 ≤ r < R` and `0 ≤ c < C`, and is dropped otherwise. -/
theorem resultIdx?_eq {w : Nat} (wf : PointWF R C N) (j : (updS N).Idx) (idx : IVec (siS N) w) :
    (pointDims R C N wf).resultIdx? j idx =
      if h : (0 ≤ (idx (ix2 (j 0) 0)).toInt ∧ (idx (ix2 (j 0) 0)).toInt < R) ∧
             (0 ≤ (idx (ix2 (j 0) 1)).toInt ∧ (idx (ix2 (j 0) 1)).toInt < C) then
        some (ix2 (⟨(idx (ix2 (j 0) 0)).toInt.toNat, by omega⟩ : Fin R)
                  (⟨(idx (ix2 (j 0) 1)).toInt.toNat, by omega⟩ : Fin C))
      else none := by
  unfold ScatterDims.resultIdx?
  by_cases h : (0 ≤ (idx (ix2 (j 0) 0)).toInt ∧ (idx (ix2 (j 0) 0)).toInt < R) ∧
             (0 ≤ (idx (ix2 (j 0) 1)).toInt ∧ (idx (ix2 (j 0) 1)).toInt < C)
  · have hall : ∀ a : Fin 2, 0 ≤ (pointDims R C N wf).start j idx a + ((pointDims R C N wf).window j a : Int) ∧
        (pointDims R C N wf).start j idx a + ((pointDims R C N wf).window j a : Int) < ((opS R C).size a : Int) := by
      intro a
      rw [start_eq, window_eq]
      match a with
      | ⟨0, _⟩ => simpa using h.1
      | ⟨1, _⟩ => simpa using h.2
    rw [dif_pos hall, dif_pos h]
    congr 1
    funext a
    match a with
    | ⟨0, _⟩ => apply Fin.ext; simp [start_eq, window_eq]
    | ⟨1, _⟩ => apply Fin.ext; simp [start_eq, window_eq]
  · rw [dif_neg h, dif_neg]
    intro hall
    apply h
    have h0 := hall 0
    have h1 := hall 1
    rw [start_eq, window_eq] at h0 h1
    exact ⟨by simpa using h0, by simpa using h1⟩

/-- The same with the two signed entries named: if entry `(j, 0)` is `rr` and entry `(j, 1)` is `cc`, update `j` lands
    at `(rr, cc)` when `0 ≤ rr < R` and `0 ≤ cc < C`, and is dropped otherwise. -/
theorem resultIdx?_of {w : Nat} (wf : PointWF R C N) (j : (updS N).Idx) (idx : IVec (siS N) w)
    (rr cc : Int) (hrr : (idx (ix2 (j 0) 0)).toInt = rr) (hcc : (idx (ix2 (j 0) 1)).toInt = cc) :
    (pointDims R C N wf).resultIdx? j idx =
      if h : (0 ≤ rr ∧ rr < R) ∧ (0 ≤ cc ∧ cc < C) then
        some (ix2 (⟨rr.toNat, by omega⟩ : Fin R) (⟨cc.toNat, by omega⟩ : Fin C))
      else none := by
  subst hrr; subst hcc; exact resultIdx?_eq wf j idx

/-- The same at the update index written by its coordinate `n`. -/
theorem resultIdx?_ix1 {w : Nat} (wf : PointWF R C N) (n : Fin N) (idx : IVec (siS N) w) :
    (pointDims R C N wf).resultIdx? (ix1 n) idx =
      if h : (0 ≤ (idx (ix2 n 0)).toInt ∧ (idx (ix2 n 0)).toInt < R) ∧
             (0 ≤ (idx (ix2 n 1)).toInt ∧ (idx (ix2 n 1)).toInt < C) then
        some (ix2 (⟨(idx (ix2 n 0)).toInt.toNat, by omega⟩ : Fin R)
                  (⟨(idx (ix2 n 1)).toInt.toNat, by omega⟩ : Fin C))
      else none :=
  resultIdx?_eq wf (ix1 n) idx

/-- Two rank-2 indices written by coordinates are equal exactly when their coordinates are. -/
theorem ix2_eq_iff {n0 n1 : Nat} (a a' : Fin n0) (b b' : Fin n1) :
    ix2 a b = ix2 a' b' ↔ a = a' ∧ b = b' := by
  constructor
  · intro h; exact ⟨congrFun h 0, congrFun h 1⟩
  · rintro ⟨rfl, rfl⟩; rfl

/-! ## The scatter as a fold of one step -/

/-- One step of the scatter's fold: update index `j` overwrites the element at its result index by the body applied
    to that element and the update's, or is dropped when its result index is outside the operand. -/
def step {s si u : Shape} {α : Type} {w : Nat} (d : ScatterDims s si u) (f : α → α → α) (idx : IVec si w)
    (upd : u.Idx → α) (r : s.Idx → α) (j : u.Idx) : s.Idx → α :=
  match d.resultIdx? j idx with
  | some i => fun i' => if i' = i then f (r i) (upd j) else r i'
  | none => r

/-- The scatter is the left fold of `step` over the update indices in row-major order (any shapes, any dimension
    numbers, any body). -/
theorem scatter_eq_foldl {s si u : Shape} {α : Type} {w : Nat} (d : ScatterDims s si u) (f : α → α → α)
    (x : s.Idx → α) (idx : IVec si w) (upd : u.Idx → α) :
    Host.scatter d f x idx upd
      = (List.finRange u.numel).foldl (fun r n => step d f idx upd r (u.rowMajor.symm n)) x := by
  unfold Host.scatter
  refine congrArg (fun g => List.foldl g x (List.finRange u.numel)) ?_
  funext r n
  unfold step
  generalize d.resultIdx? (u.rowMajor.symm n) idx = o
  cases o <;> rfl

/-! ## Restriction to a sub-box of rows -/

/-- ONE STEP keeps "the two accumulators agree on the rows below `R`": let the larger operand have `R' ≥ R` rows, the
    two scatter indices read the same signed pairs, the two updates be equal, and the accumulators `x'`, `x` agree at
    every `(p, q)` with `p < R`. Update `j`, addressed to `(rr, cc)`: with `0 ≤ rr < R` and `0 ≤ cc < C` it overwrites
    position `(rr, cc)` of both, by the body applied to equal elements; with `R ≤ rr < R'` it overwrites only the larger
    accumulator, in row `rr ≥ R`; otherwise it is dropped by both. In every case the new accumulators agree at `(p, q)`. -/
theorem step_restrict {α : Type} {w : Nat} {R' : Nat} (hR : R ≤ R')
    (wf : PointWF R C N) (wf' : PointWF R' C N) (f : α → α → α)
    (idx idx' : IVec (siS N) w) (upd upd' : (updS N).Idx → α)
    (hrow : ∀ n : Fin N, (idx' (ix2 n 0)).toInt = (idx (ix2 n 0)).toInt)
    (hcol : ∀ n : Fin N, (idx' (ix2 n 1)).toInt = (idx (ix2 n 1)).toInt)
    (hupd : ∀ j, upd' j = upd j)
    (j : (updS N).Idx)
    (x : (opS R C).Idx → α) (x' : (opS R' C).Idx → α)
    (h : ∀ (p : Fin R) (q : Fin C), x' (ix2 ⟨p.val, by omega⟩ q) = x (ix2 p q))
    (p : Fin R) (q : Fin C) :
    step (pointDims R' C N wf') f idx' upd' x' j (ix2 ⟨p.val, by omega⟩ q)
      = step (pointDims R C N wf) f idx upd x j (ix2 p q) := by
  obtain ⟨rr, hrr⟩ : ∃ rr, (idx (ix2 (j 0) 0)).toInt = rr := ⟨_, rfl⟩
  obtain ⟨cc, hcc⟩ : ∃ cc, (idx (ix2 (j 0) 1)).toInt = cc := ⟨_, rfl⟩
  unfold step
  rw [resultIdx?_of wf' j idx' rr cc ((hrow (j 0)).trans hrr) ((hcol (j 0)).trans hcc),
      resultIdx?_of wf j idx rr cc hrr hcc, hupd j]
  by_cases hc : 0 ≤ cc ∧ cc < (C : Int)
  · by_cases hr : 0 ≤ rr ∧ rr < (R : Int)
    · -- the update lands inside the small operand: at the same place in both
      have hsmall : (0 ≤ rr ∧ rr < (R : Int)) ∧ (0 ≤ cc ∧ cc < (C : Int)) := ⟨hr, hc⟩
      have hbig : (0 ≤ rr ∧ rr < (R' : Int)) ∧ (0 ≤ cc ∧ cc < (C : Int)) := ⟨⟨hr.1, by omega⟩, hc⟩
      rw [dif_pos hbig, dif_pos hsmall]
      have hx := h ⟨rr.toNat, by omega⟩ ⟨cc.toNat, by omega⟩
      by_cases he : p.val = rr.toNat ∧ q.val = cc.toNat
      · show (if _ then _ else _) = (if _ then _ else _)
        rw [if_pos ((ix2_eq_iff _ _ _ _).2 ⟨Fin.ext he.1, Fin.ext he.2⟩),
            if_pos ((ix2_eq_iff _ _ _ _).2 ⟨Fin.ext he.1, Fin.ext he.2⟩), hx]
      · show (if _ then _ else _) = (if _ then _ else _)
        rw [if_neg (fun hh => he ⟨congrArg Fin.val ((ix2_eq_iff _ _ _ _).1 hh).1,
              congrArg Fin.val ((ix2_eq_iff _ _ _ _).1 hh).2⟩),
            if_neg (fun hh => he ⟨congrArg Fin.val ((ix2_eq_iff _ _ _ _).1 hh).1,
              congrArg Fin.val ((ix2_eq_iff _ _ _ _).1 hh).2⟩), h p q]
    · have hsmall : ¬ ((0 ≤ rr ∧ rr < (R : Int)) ∧ (0 ≤ cc ∧ cc < (C : Int))) := fun hh => hr hh.1
      by_cases hr' : 0 ≤ rr ∧ rr < (R' : Int)
      · -- the update lands in the larger operand only, in a row at or beyond `R`: position `(p, q)` is not it
        have hbig : (0 ≤ rr ∧ rr < (R' : Int)) ∧ (0 ≤ cc ∧ cc < (C : Int)) := ⟨hr', hc⟩
        rw [dif_pos hbig, dif_neg hsmall]
        show (if _ then _ else _) = _
        rw [if_neg, h p q]
        intro hh
        have := congrArg Fin.val ((ix2_eq_iff _ _ _ _).1 hh).1
        simp at this
        omega
      · -- the row is outside both operands: dropped by both
        have hbig : ¬ ((0 ≤ rr ∧ rr < (R' : Int)) ∧ (0 ≤ cc ∧ cc < (C : Int))) := fun hh => hr' hh.1
        rw [dif_neg hbig, dif_neg hsmall]
        exact h p q
  · -- the column is outside both operands: dropped by both
    have hsmall : ¬ ((0 ≤ rr ∧ rr < (R : Int)) ∧ (0 ≤ cc ∧ cc < (C : Int))) := fun hh => hc hh.2
    have hbig : ¬ ((0 ≤ rr ∧ rr < (R' : Int)) ∧ (0 ≤ cc ∧ cc < (C : Int))) := fun hh => hc hh.2
    rw [dif_neg hbig, dif_neg hsmall]
    exact h p q

/-- The fold over ANY list of update positions keeps the agreement on the rows below `R`: induction on the list, both
    accumulators general, each step by `step_restrict`. -/
theorem foldl_restrict {α : Type} {w : Nat} {R' : Nat} (hR : R ≤ R')
    (wf : PointWF R C N) (wf' : PointWF R' C N) (f : α → α → α)
    (idx idx' : IVec (siS N) w) (upd upd' : (updS N).Idx → α)
    (hrow : ∀ n : Fin N, (idx' (ix2 n 0)).toInt = (idx (ix2 n 0)).toInt)
    (hcol : ∀ n : Fin N, (idx' (ix2 n 1)).toInt = (idx (ix2 n 1)).toInt)
    (hupd : ∀ j, upd' j = upd j)
    (l : List (Fin (updS N).numel)) :
    ∀ (x : (opS R C).Idx → α) (x' : (opS R' C).Idx → α),
      (∀ (p : Fin R) (q : Fin C), x' (ix2 ⟨p.val, by omega⟩ q) = x (ix2 p q)) →
      ∀ (p : Fin R) (q : Fin C),
        l.foldl (fun r n => step (pointDims R' C N wf') f idx' upd' r ((updS N).rowMajor.symm n)) x'
            (ix2 ⟨p.val, by omega⟩ q)
        = l.foldl (fun r n => step (pointDims R C N wf) f idx upd r ((updS N).rowMajor.symm n)) x (ix2 p q) := by
  induction l with
  | nil => intro x x' h p q; exact h p q
  | cons n l ih =>
    intro x x' h
    rw [List.foldl_cons, List.foldl_cons]
    apply ih
    intro p q
    exact step_restrict hR wf wf' f idx idx' upd upd' hrow hcol hupd ((updS N).rowMajor.symm n) x x' h p q

/-- RESTRICTION TO A SUB-BOX, any body `f`: a point scatter into an `[R', C]` operand and the same scatter into an
    `[R, C]` operand, `R ≤ R'`, whose scatter indices read the same signed (row, column) pairs, whose updates are
    equal and whose operands agree on the rows below `R`, have results that agree on the rows below `R`. -/
theorem scatter_restrict {α : Type} {w : Nat} {R' : Nat} (hR : R ≤ R')
    (wf : PointWF R C N) (wf' : PointWF R' C N) (f : α → α → α)
    (x : (opS R C).Idx → α) (x' : (opS R' C).Idx → α)
    (idx idx' : IVec (siS N) w) (upd upd' : (updS N).Idx → α)
    (hrow : ∀ n : Fin N, (idx' (ix2 n 0)).toInt = (idx (ix2 n 0)).toInt)
    (hcol : ∀ n : Fin N, (idx' (ix2 n 1)).toInt = (idx (ix2 n 1)).toInt)
    (hupd : ∀ j, upd' j = upd j)
    (hx : ∀ (p : Fin R) (q : Fin C), x' (ix2 ⟨p.val, by omega⟩ q) = x (ix2 p q))
    (p : Fin R) (q : Fin C) :
    Host.scatter (pointDims R' C N wf') f x' idx' upd' (ix2 ⟨p.val, by omega⟩ q)
      = Host.scatter (pointDims R C N wf) f x idx upd (ix2 p q) := by
  rw [scatter_eq_foldl, scatter_eq_foldl]
  exact foldl_restrict hR wf wf' f idx idx' upd upd' hrow hcol hupd _ x x' hx p q

/-- RESTRICTION TO A SUB-BOX for `x.at[rows, cols].set(v)` (the body returns the update), with the shapes and the
    dimension-number record written out: for `R ≤ R'`, 32-bit scatter indices reading the same signed pairs, one
    update array and operands that agree on the rows below `R`, the two results agree on the rows below `R`. -/
theorem scatter_set_restrict {α : Type} {R R' C N : Nat} (hR : R ≤ R')
    (wf : ScatterDims.WF ⟨2, ![R, C]⟩ ⟨2, ![N, 2]⟩ ⟨1, ![N]⟩ [] [0, 1] [0, 1] 1)
    (wf' : ScatterDims.WF ⟨2, ![R', C]⟩ ⟨2, ![N, 2]⟩ ⟨1, ![N]⟩ [] [0, 1] [0, 1] 1)
    (x : (⟨2, ![R, C]⟩ : Shape).Idx → α) (x' : (⟨2, ![R', C]⟩ : Shape).Idx → α)
    (idx idx' : IVec ⟨2, ![N, 2]⟩ 32) (upd : (⟨1, ![N]⟩ : Shape).Idx → α)
    (hrow : ∀ n : Fin N, (idx' (ix2 n (0 : Fin 2))).toInt = (idx (ix2 n (0 : Fin 2))).toInt)
    (hcol : ∀ n : Fin N, (idx' (ix2 n (1 : Fin 2))).toInt = (idx (ix2 n (1 : Fin 2))).toInt)
    (hx : ∀ (p : Fin R) (q : Fin C), x' (ix2 ⟨p.val, by omega⟩ q) = x (ix2 p q))
    (p : Fin R) (q : Fin C) :
    Host.scatter (ScatterDims.mk [] [0, 1] [0, 1] 1 wf' : ScatterDims ⟨2, ![R', C]⟩ ⟨2, ![N, 2]⟩ ⟨1, ![N]⟩)
        (fun _ b => b) x' idx' upd (ix2 ⟨p.val, by omega⟩ q)
      = Host.scatter (ScatterDims.mk [] [0, 1] [0, 1] 1 wf : ScatterDims ⟨2, ![R, C]⟩ ⟨2, ![N, 2]⟩ ⟨1, ![N]⟩)
        (fun _ b => b) x idx upd (ix2 p q) :=
  scatter_restrict hR wf wf' (fun _ b => b) x x' idx idx' upd upd hrow hcol (fun _ => rfl) hx p q

end Cert.LibPointScatter
-- ==== Proof.Bridge.lean ====
/-
  The two programs compute one function.

  The kernel's result array is the dense layer over 30720 contracted positions of: `x` padded with 720 zero columns,
  the weight vector scattered into a 30720-row array of zeros, and the bias. The reference's is the dense layer over
  30000 contracted positions of `x`, the weight vector scattered into a 30000-row array of zeros, and the bias.

  * The padded `x` is `x` on the first 30000 columns and zero on the other 720 (the integer 0 converted to a float
    is the real number 0; a change of float format is the identity).
  * When every row index is non-negative, the index wrap-around leaves the row indices as they are in both programs
    (it would add 30720 in one and 30000 in the other to a negative one); the column indices are wrapped around the
    same extent 2048 in both. So the two scatters read the same signed index pairs and write the same updates in the
    same order, into arrays of zeros: they agree on the first 30000 rows; the kernel's other 720 rows meet the
    zero columns of the padded `x`.
  * Zero times any extended real is zero, so the 720 extra terms of each sum vanish and the two layers are equal.
-/
import proofs.«137816_j38165079392670_2_alg».proof.Proof.ArrayValue
import proofs.«137816_j38165079392670_2_alg».proof.Proof.RegionInputs
import proofs.«137816_j38165079392670_2_alg».proof.Proof.RefDense
import proofs.«137816_j38165079392670_2_alg».proof.Proof.LibPointScatter
import Idealize.ShloMosaic.Lib.KernelVsHost
import Idealize.ShloMosaic.Lib.IdealHost

noncomputable section

namespace Cert.Bridge

open Idealize.ShloMosaic Idealize.ShloMosaic.TcCoe Idealize.SL.Sem Idealize.ShloMosaic.ValueIdx
open Cert.KernelIdeal Cert.KernelIdeal.RegionInputs Cert.LibWrapPairs

variable (m : (ℓ : Loc nD τ sig) → Buf (Elt Ideal) ℓ) (c : Dev nD)

/-- On the first 30000 columns the padded left matrix is `x`. -/
theorem paddedX_inside (p : Fin 32) (k : Fin 30000) :
    paddedX m c (ix2 p ⟨k.val, by have := k.isLt; omega⟩) = (m ((c : Thread nD τ).loc main_arg0)) (ix2 p k) := by
  unfold paddedX
  refine Eq.trans (truncf_apply (ψ := .bf16) _ Facts₀.bitsLt_bf16_f32 _) ?_
  exact pad_apply_of_inside ![0, 0] ![0, 720] ![0, 0] _ _ _ _ _ (ix2 p k) (fun a => match a with
    | ⟨0, _⟩ => by show p.val = 0 + p.val * (0 + 1); omega
    | ⟨1, _⟩ => by show k.val = 0 + k.val * (0 + 1); omega)

/-- On the 720 added columns it is zero. -/
theorem paddedX_outside (p : Fin 32) (k : Fin 30720) (hk : 30000 ≤ k.val) : paddedX m c (ix2 p k) = 0 := by
  unfold paddedX
  refine Eq.trans (truncf_apply (ψ := .bf16) _ Facts₀.bitsLt_bf16_f32 _) ?_
  refine (pad_apply_of_not_inside (s := S32x30000) (t := S32x30720) ![0, 0] ![0, 720] ![0, 0] _ _ _ _ (ix2 p k) (1 : Fin 2) ?_).trans ?_
  · show ¬(0 ≤ k.val ∧ (k.val - 0) % (0 + 1) = 0 ∧ (k.val - 0) / (0 + 1) < 30000)
    omega
  · show (((0#32 : BitVec 32).toInt : ℝ) : EReal) = 0
    simp

/-- The reference's index pairs: rows wrapped around 30000, columns around 2048. -/
theorem ref_pairs (x3 : IVec Cert.ReferenceIdeal.S500000x2 32) :
    Cert.ReferenceIdeal.Read.val_main_v17 (F := Ideal) x3
      = wrapPairs 500000 30000#32 2048#32 x3 Cert.ReferenceIdeal.Facts₀.slices_S500000x2_S500000x1_0_0
          Cert.ReferenceIdeal.Facts₀.slices_S500000x2_S500000x1_0_1 Cert.ReferenceIdeal.Facts₀.shapeCasts_S500000x1_S500000
          Cert.ReferenceIdeal.Facts₀.bcast_S_S500000 Cert.ReferenceIdeal.Facts₀.bcast_S500000_S500000x1_0
          Cert.ReferenceIdeal.Facts₀.concatenates_S500000x1_S500000x1_S500000x2_d1 := rfl

/-- With non-negative row indices the two scatters agree on the first 30000 rows. -/
theorem scattered_agree (hrows : ∀ n : Fin 500000, 0 ≤ ((m ((c : Thread nD τ).loc main_arg3)) (ix2 n (0 : Fin 2))).toInt)
    (k : Fin 30000) (q : Fin 2048) :
    scattered m c (ix2 ⟨k.val, by have := k.isLt; omega⟩ q)
      = Cert.ReferenceIdeal.Read.val_main_v18 (F := Ideal) (m ((c : Thread nD τ).loc main_arg1)) (m ((c : Thread nD τ).loc main_arg3)) (ix2 k q) := by
  have z16 : Ideal.ofBits .bf16 0x0000#16 = 0 := by simp [Ideal.ofBits, Ideal.ieee]
  have hrow : ∀ n : Fin 500000, (pairs m c (ix2 n (0 : Fin 2))).toInt
      = (Cert.ReferenceIdeal.Read.val_main_v17 (F := Ideal) (m ((c : Thread nD τ).loc main_arg3)) (ix2 n (0 : Fin 2))).toInt := fun n => by
    rw [ref_pairs, wrapPairs_row]
    unfold pairs
    rw [wrapPairs_row, wrap_of_nonneg _ _ (hrows n), wrap_of_nonneg _ _ (hrows n)]
  have hcol : ∀ n : Fin 500000, (pairs m c (ix2 n (1 : Fin 2))).toInt
      = (Cert.ReferenceIdeal.Read.val_main_v17 (F := Ideal) (m ((c : Thread nD τ).loc main_arg3)) (ix2 n (1 : Fin 2))).toInt := fun n => by
    rw [ref_pairs, wrapPairs_col]
    unfold pairs
    rw [wrapPairs_col]
  have hx : ∀ (p : Fin 30000) (q : Fin 2048),
      zeros (ix2 ⟨p.val, by have := p.isLt; omega⟩ q)
      = Cert.ReferenceIdeal.Read.val_main_v0 (F := Ideal) (ix2 p q) := fun p q => by
    unfold zeros
    rw [broadcastInDim_scalar_apply, Cert.ReferenceIdeal.Read.val_main_v0_apply, Cert.ReferenceIdeal.Read.val_main_cst_apply]
    show Ideal.ofBits .bf16 0x0000#16 = Ideal.ofBits .f32 0x00000000#32
    rw [z16, Ideal.ofBits_zero_f32]
  unfold scattered Cert.ReferenceIdeal.Read.val_main_v18
  rw [weights_eq]
  unfold scatter_S30720x2048_S500000x2_S500000_n_01_01_1 Cert.ReferenceIdeal.scatter_S30000x2048_S500000x2_S500000_n_01_01_1
  exact Cert.LibPointScatter.scatter_set_restrict (by decide) Cert.ReferenceIdeal.Facts₀.scatter_S30000x2048_S500000x2_S500000_n_01_01_1_wf
    Facts₀.scatter_S30720x2048_S500000x2_S500000_n_01_01_1_wf (Cert.ReferenceIdeal.Read.val_main_v0 (F := Ideal)) _
    (Cert.ReferenceIdeal.Read.val_main_v17 (F := Ideal) (m ((c : Thread nD τ).loc main_arg3))) (pairs m c) (m ((c : Thread nD τ).loc main_arg1)) hrow hcol hx k q

/-- THE BRIDGE: with non-negative row indices, the kernel's result array is the reference's result of the same
    arguments. -/
theorem result_eq (hrows : ∀ n : Fin 500000, 0 ≤ ((m ((c : Thread nD τ).loc main_arg3)) (ix2 n (0 : Fin 2))).toInt) :
    ArrayValue.result m c
      = Cert.ReferenceIdeal.Read.val_main_v23 (F := Ideal) (m ((c : Thread nD τ).loc main_arg0)) (m ((c : Thread nD τ).loc main_arg1)) (m ((c : Thread nD τ).loc main_arg2)) (m ((c : Thread nD τ).loc main_arg3)) := by
  unfold ArrayValue.result
  rw [Xin_eq, Win_eq, Bin_eq, Cert.ReferenceIdeal.RefDense.ref_eq]
  exact Cert.DenseSpec.dense_padded _ _ _ _ _ (paddedX_inside m c) (paddedX_outside m c) (scattered_agree m c hrows)

end Cert.Bridge

end
-- ==== Proof.RowsNonneg.lean ====
/-
  The printed precondition `finite_inputs` is a conjunction of four tests: three say that the float arguments
  are finite, and the last one is `all(idx[:, 0] ≥ 0)` for the int32 array `idx` of shape [500000, 2], the
  comparison being signed. This file reads that last conjunct back: if the precondition holds (its one word is 1),
  then every entry of column 0 of `idx`, read as a signed 32-bit integer, is non-negative.

  The road: the precondition's word is an `and` of four words, so each is 1; the fourth is a reduction by `and`
  over all 500000 entries of an `i1` vector, from the initial value 1, so every entry of that vector is 1; entry
  `n` of the vector is the signed comparison `x n ≥ 0`, where `x` is column 0 of `idx` (rows 0‥499999, columns
  0‥0, a [500000, 1] array) reshaped to [500000], and `0` is the scalar zero broadcast to [500000]. The reshape
  keeps row-major positions: position `n` of [500000] is position `n * 1 + 0` of [500000, 1], that is entry
  (n, 0); the slice has zero offsets, so that entry is `idx (n, 0)`. A signed comparison `x ≥ 0` whose word is 1
  says `0 ≤ x` for the signed readings.
-/
import proofs.«137816_j38165079392670_2_alg».proof.Pre_finite_inputs
import Idealize.ShloMosaic.Lib.ValueIdx
import Idealize.ShloMosaic.Lib.ReduceAll
import Idealize.ShloMosaic.Lib.Pipeline.Value
import Idealize.ShloMosaic.Lib.IdealHost

noncomputable section

namespace Cert.RowsNonneg

open Idealize.ShloMosaic Idealize.ShloMosaic.ValueIdx
open Cert.Pre_finite_inputs

/-- The precondition's last conjunct, `all(idx[:, 0] ≥ 0)` with a signed comparison, read back at row `n`:
    when the precondition holds, the row index `idx (n, 0)` is non-negative as a signed 32-bit integer. -/
theorem rows_nonneg {F : FTy → Type} [FloatOps F] [Facts]
    (a0 : FVec F S32x30000 .f32) (a1 : FVec F S500000 .f32) (a2 : FVec F S2048 .f32) (a3 : IVec S500000x2 32)
    (h : fn (F := F) a0 a1 a2 a3 = fun _ => 1#1) (n : Fin 500000) :
    0 ≤ (a3 (ix2 n (0 : Fin 2))).toInt := by
  -- the scalar shape has one index
  haveI : Subsingleton S_.Idx := ⟨fun a b => funext fun d => d.elim0⟩
  -- the precondition's one word is 1
  have e := congrFun h ix0
  dsimp only [fn, fn_part1] at e
  -- an `and` that is 1 has both operands 1: keep the last conjunct, the reduction over the index comparisons
  have e2 := (IntOp.andi_eq_one.1 e).2
  -- a reduction by `and` over all entries that is 1 met a 1 at every entry, so at entry n
  have e3 := Host.reduce_andi_all _ _ _ _ _ e2 (ix1 n)
  -- entry n of column 0 reshaped to a vector is idx (n, 0): same row-major position n * 1 + 0 = n, zero offsets
  have hx : shapeCast S500000 (extractStridedSlice S500000x1 ![0, 0] a3 Facts.slices_S500000x2_S500000x1_0_0)
      Facts.shapeCasts_S500000x1_S500000 (ix1 n) = a3 (ix2 n (0 : Fin 2)) := by
    refine (shapeCast_apply _ _ (ix1 n) (ix2 n (0 : Fin 1)) ?_).trans ?_
    · rw [Shape.rowMajor_val_two, Shape.rowMajor_val_one]
      show n.val * 1 + 0 = n.val
      omega
    · exact extractStridedSlice_apply _ _ _ _ _ (fun a => match a with
        | ⟨0, _⟩ => by show n.val = 0 + n.val; omega
        | ⟨1, _⟩ => by show 0 = 0 + 0; rfl)
  -- the broadcast scalar zero reads 0 everywhere
  have hy : broadcastInDim S500000 ![] Facts.bcast_S_S500000 (constantI S_ 32 0#32) (ix1 n) = 0#32 := by
    rw [broadcastInDim_scalar_apply]; rfl
  -- so entry n of the compared vector is the word of the signed comparison idx (n, 0) ≥ 0
  have e4 : IntOp.cmpi .sge (a3 (ix2 n (0 : Fin 2))) 0#32 = 1#1 := by
    rw [← hx, ← hy]; exact e3
  -- a signed `≥` whose word is 1 orders the signed readings; the zero word reads 0
  have e5 := IntOp.cmpi_sge.1 e4
  rwa [show (0#32 : BitVec 32).toInt = 0 from by decide] at e5

end Cert.RowsNonneg

end
-- ==== Proof.lean ====
/-
  A dense layer whose weight matrix is given in coordinate form: `tanh (x · T + bias)`, where the matrix `T` is built
  by writing 500000 weights at given (row, column) positions into an array of zeros.

  The reference builds `T` with 30000 rows and contracts `x` (32 x 30000) with it in one product. The kernel builds
  `T` with 30720 rows, pads `x` with 720 zero columns, and walks a grid of two column tiles by five steps of 6144
  contracted positions, accumulating the five partial products of a tile and finishing the tile with the bias and
  tanh. On the extended reals the two are one function as soon as no row index is negative (a negative row index is
  wrapped around the number of rows, which is not the same number in the two programs):

  * the five partial sums of a tile add up to the sum over all 30720 positions (re-association of a finite sum);
  * the last 720 terms vanish, because the padded `x` is zero there and zero times anything is zero;
  * on the first 30000 rows the two scatters write the same weights at the same places in the same order.

  The kernel's frame and its idealization's are the generated frame certificates; the reference's frame is its
  generated run with the result dropped; the idealization rewrote nothing.
-/
import proofs.«137816_j38165079392670_2_alg».proof.Defs
import proofs.«137816_j38165079392670_2_alg».proof.Proof.Gen.Kernel
import proofs.«137816_j38165079392670_2_alg».proof.Proof.Gen.Kernel.Skeleton
import proofs.«137816_j38165079392670_2_alg».proof.Proof.Gen.Kernel.Launch
import proofs.«137816_j38165079392670_2_alg».proof.Proof.Gen.Kernel.Points
import proofs.«137816_j38165079392670_2_alg».proof.Proof.Gen.Kernel.Frame
import proofs.«137816_j38165079392670_2_alg».proof.Proof.Gen.KernelIdeal
import proofs.«137816_j38165079392670_2_alg».proof.Proof.Gen.KernelIdeal.Skeleton
import proofs.«137816_j38165079392670_2_alg».proof.Proof.Gen.KernelIdeal.Launch
import proofs.«137816_j38165079392670_2_alg».proof.Proof.Gen.KernelIdeal.Points
import proofs.«137816_j38165079392670_2_alg».proof.Proof.Gen.KernelIdeal.Frame
import proofs.«137816_j38165079392670_2_alg».proof.Proof.Gen.ReferenceIdeal
import proofs.«137816_j38165079392670_2_alg».proof.Proof.Gen.Pre_finite_inputs
import proofs.«137816_j38165079392670_2_alg».proof.Proof.Gen.KernelIdeal.Value
import proofs.«137816_j38165079392670_2_alg».proof.Proof.Gen.ReferenceIdeal.Run
import proofs.«137816_j38165079392670_2_alg».proof.Proof.Gen.ReferenceIdeal.Read
import proofs.«137816_j38165079392670_2_alg».proof.Proof.Bridge
import proofs.«137816_j38165079392670_2_alg».proof.Proof.RowsNonneg
import Idealize.ShloMosaic.Adequacy
import Idealize.ShloMosaic.Init

noncomputable section

namespace Cert.Proof

open Idealize.ShloMosaic Idealize.SL.Sem

/-- The kernel as printed runs, nothing faults, and its arguments end unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from arguments that agree and whose row indices are non-negative (the precondition's last
    conjunct), the kernel's result array and the reference's end equal: both are the dense layer of the arguments. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2.1, (hagree c).2.2.2]
  exact (Cert.Bridge.result_eq m c fun n => Cert.RowsNonneg.rows_nonneg _ _ _ _ (hpre c) n).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
